-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x16 : Shape := ⟨2, ![524288, 16]⟩
abbrev S64x16 : Shape := ⟨2, ![64, 16]⟩
abbrev S32x64 : Shape := ⟨2, ![32, 64]⟩
abbrev S32x32 : Shape := ⟨2, ![32, 32]⟩
abbrev S5x32 : Shape := ⟨2, ![5, 32]⟩
abbrev S16 : Shape := ⟨1, ![16]⟩
abbrev S64 : Shape := ⟨1, ![64]⟩
abbrev S5 : Shape := ⟨1, ![5]⟩
abbrev S_ : Shape := ⟨0, ![]⟩

class Facts : Prop where
  bcast_S_S524288x16 : S_.BroadcastsInDim S524288x16 (![] : Fin 0 → Fin S524288x16.rank)
  reducesTo_S524288x16_S_d0_1 : S524288x16.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S32x64 : S_.BroadcastsInDim S32x64 (![] : Fin 0 → Fin S32x64.rank)
  reducesTo_S32x64_S_d0_1 : S32x64.ReducesTo [0, 1] S_
  bcast_S_S32x32 : S_.BroadcastsInDim S32x32 (![] : Fin 0 → Fin S32x32.rank)
  reducesTo_S32x32_S_d0_1 : S32x32.ReducesTo [0, 1] S_
  bcast_S_S5x32 : S_.BroadcastsInDim S5x32 (![] : Fin 0 → Fin S5x32.rank)
  reducesTo_S5x32_S_d0_1 : S5x32.ReducesTo [0, 1] S_
  bcast_S_S16 : S_.BroadcastsInDim S16 (![] : Fin 0 → Fin S16.rank)
  reducesTo_S16_S_d0 : S16.ReducesTo [0] S_
  bcast_S_S64 : S_.BroadcastsInDim S64 (![] : Fin 0 → Fin S64.rank)
  reducesTo_S64_S_d0 : S64.ReducesTo [0] S_
  bcast_S_S5 : S_.BroadcastsInDim S5 (![] : Fin 0 → Fin S5.rank)
  reducesTo_S5_S_d0 : S5.ReducesTo [0] S_

variable [Facts]

def fn_part5 {F : FTy → Type} [FloatOps F] (main_arg9 : FVec F S16 .f32) (main_arg13 : FVec F S64 .f32) (main_v83 : IVec S_ 1) (main_v84 : FVec F S5 .f32) (main_cst_32 : FVec F S_ .f32) : IVec S_ 1 :=
  let main_v85 : FVec F S5 .f32 := broadcastInDim S5 ![] bcast_S_S5 main_cst_32
  let main_v86 : IVec S5 1 := cmpf .olt main_v84 main_v85
  let main_c_33 : IVec S_ 1 := constantI S_ 1 1#1
  let main_v87 : IVec S_ 1 := (fun x v => Host.reduce IntOp.andi x v reducesTo_S5_S_d0 h_S_) main_v86 main_c_33
  let main_v88 : IVec S_ 1 := andi main_v83 main_v87
  let main_cst_34 : FVec F S_ .f32 := constant S_ .f32 0x00000000#32
  let main_v89 : FVec F S16 .f32 := broadcastInDim S16 ![] bcast_S_S16 main_cst_34
  let main_v90 : IVec S16 1 := cmpf .oge main_arg9 main_v89
  let main_c_35 : IVec S_ 1 := constantI S_ 1 1#1
  let main_v91 : IVec S_ 1 := (fun x v => Host.reduce IntOp.andi x v reducesTo_S16_S_d0 h_S_) main_v90 main_c_35
  let main_v92 : IVec S_ 1 := andi main_v88 main_v91
  let main_cst_36 : FVec F S_ .f32 := constant S_ .f32 0x00000000#32
  let main_v93 : FVec F S64 .f32 := broadcastInDim S64 ![] bcast_S_S64 main_cst_36
  let main_v94 : IVec S64 1 := cmpf .oge main_arg13 main_v93
  let main_c_37 : IVec S_ 1 := constantI S_ 1 1#1
  let main_v95 : IVec S_ 1 := (fun x v => Host.reduce IntOp.andi x v reducesTo_S64_S_d0 h_S_) main_v94 main_c_37
  let main_v96 : IVec S_ 1 := andi main_v92 main_v95
  main_v96

def fn_part4 {F : FTy → Type} [FloatOps F] (main_arg9 : FVec F S16 .f32) (main_arg13 : FVec F S64 .f32) (main_arg14 : FVec F S5 .f32) (main_arg15 : FVec F S5 .f32) (main_arg16 : FVec F S5 .f32) (main_arg17 : FVec F S5 .f32) (main_v63 : IVec S_ 1) (main_v67 : IVec S_ 1) : IVec S_ 1 :=
  let main_v68 : IVec S_ 1 := andi main_v63 main_v67
  let main_v69 : FVec F S5 .f32 := Host.absf main_arg14
  let main_cst_26 : FVec F S_ .f32 := constant S_ .f32 0x7F800000#32
  let main_v70 : FVec F S5 .f32 := broadcastInDim S5 ![] bcast_S_S5 main_cst_26
  let main_v71 : IVec S5 1 := cmpf .olt main_v69 main_v70
  let main_c_27 : IVec S_ 1 := constantI S_ 1 1#1
  let main_v72 : IVec S_ 1 := (fun x v => Host.reduce IntOp.andi x v reducesTo_S5_S_d0 h_S_) main_v71 main_c_27
  let main_v73 : IVec S_ 1 := andi main_v68 main_v72
  let main_v74 : FVec F S5 .f32 := Host.absf main_arg15
  let main_cst_28 : FVec F S_ .f32 := constant S_ .f32 0x7F800000#32
  let main_v75 : FVec F S5 .f32 := broadcastInDim S5 ![] bcast_S_S5 main_cst_28
  let main_v76 : IVec S5 1 := cmpf .olt main_v74 main_v75
  let main_c_29 : IVec S_ 1 := constantI S_ 1 1#1
  let main_v77 : IVec S_ 1 := (fun x v => Host.reduce IntOp.andi x v reducesTo_S5_S_d0 h_S_) main_v76 main_c_29
  let main_v78 : IVec S_ 1 := andi main_v73 main_v77
  let main_v79 : FVec F S5 .f32 := Host.absf main_arg16
  let main_cst_30 : FVec F S_ .f32 := constant S_ .f32 0x7F800000#32
  let main_v80 : FVec F S5 .f32 := broadcastInDim S5 ![] bcast_S_S5 main_cst_30
  let main_v81 : IVec S5 1 := cmpf .olt main_v79 main_v80
  let main_c_31 : IVec S_ 1 := constantI S_ 1 1#1
  let main_v82 : IVec S_ 1 := (fun x v => Host.reduce IntOp.andi x v reducesTo_S5_S_d0 h_S_) main_v81 main_c_31
  let main_v83 : IVec S_ 1 := andi main_v78 main_v82
  let main_v84 : FVec F S5 .f32 := Host.absf main_arg17
  let main_cst_32 : FVec F S_ .f32 := constant S_ .f32 0x7F800000#32
  fn_part5 (F := F) main_arg9 main_arg13 main_v83 main_v84 main_cst_32

def fn_part3 {F : FTy → Type} [FloatOps F] (main_arg9 : FVec F S16 .f32) (main_arg11 : FVec F S64 .f32) (main_arg12 : FVec F S64 .f32) (main_arg13 : FVec F S64 .f32) (main_arg14 : FVec F S5 .f32) (main_arg15 : FVec F S5 .f32) (main_arg16 : FVec F S5 .f32) (main_arg17 : FVec F S5 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg9 main_arg13 main_arg14 main_arg15 main_arg16 main_arg17 main_v63 main_v67

def fn_part2 {F : FTy → Type} [FloatOps F] (main_arg7 : FVec F S16 .f32) (main_arg8 : FVec F S16 .f32) (main_arg9 : FVec F S16 .f32) (main_arg10 : FVec F S64 .f32) (main_arg11 : FVec F S64 .f32) (main_arg12 : FVec F S64 .f32) (main_arg13 : FVec F S64 .f32) (main_arg14 : FVec F S5 .f32) (main_arg15 : FVec F S5 .f32) (main_arg16 : FVec F S5 .f32) (main_arg17 : FVec F S5 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg9 main_arg11 main_arg12 main_arg13 main_arg14 main_arg15 main_arg16 main_arg17 main_v48 main_v49 main_v50

def fn_part1 {F : FTy → Type} [FloatOps F] (main_arg4 : FVec F S32x32 .f32) (main_arg5 : FVec F S5x32 .f32) (main_arg6 : FVec F S16 .f32) (main_arg7 : FVec F S16 .f32) (main_arg8 : FVec F S16 .f32) (main_arg9 : FVec F S16 .f32) (main_arg10 : FVec F S64 .f32) (main_arg11 : FVec F S64 .f32) (main_arg12 : FVec F S64 .f32) (main_arg13 : FVec F S64 .f32) (main_arg14 : FVec F S5 .f32) (main_arg15 : FVec F S5 .f32) (main_arg16 : FVec F S5 .f32) (main_arg17 : FVec F S5 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S5x32 .f32 := Host.absf main_arg5
  let main_cst_8 : FVec F S_ .f32 := constant S_ .f32 0x7F800000#32
  let main_v25 : FVec F S5x32 .f32 := broadcastInDim S5x32 ![] bcast_S_S5x32 main_cst_8
  let main_v26 : IVec S5x32 1 := cmpf .olt main_v24 main_v25
  let main_c_9 : IVec S_ 1 := constantI S_ 1 1#1
  let main_v27 : IVec S_ 1 := (fun x v => Host.reduce IntOp.andi x v reducesTo_S5x32_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S524288x16 .f32) (main_arg1 : FVec F S64x16 .f32) (main_arg2 : FVec F S32x64 .f32) (main_arg3 : FVec F S32x32 .f32) (main_arg4 : FVec F S32x32 .f32) (main_arg5 : FVec F S5x32 .f32) (main_arg6 : FVec F S16 .f32) (main_arg7 : FVec F S16 .f32) (main_arg8 : FVec F S16 .f32) (main_arg9 : FVec F S16 .f32) (main_arg10 : FVec F S64 .f32) (main_arg11 : FVec F S64 .f32) (main_arg12 : FVec F S64 .f32) (main_arg13 : FVec F S64 .f32) (main_arg14 : FVec F S5 .f32) (main_arg15 : FVec F S5 .f32) (main_arg16 : FVec F S5 .f32) (main_arg17 : FVec F S5 .f32) : IVec S_ 1 :=
  let main_v0 : FVec F S524288x16 .f32 := Host.absf main_arg0
  let main_cst : FVec F S_ .f32 := constant S_ .f32 0x7F800000#32
  let main_v1 : FVec F S524288x16 .f32 := broadcastInDim S524288x16 ![] bcast_S_S524288x16 main_cst
  let main_v2 : IVec S524288x16 1 := cmpf .olt main_v0 main_v1
  let main_c : IVec S_ 1 := constantI S_ 1 1#1
  let main_v3 : IVec S_ 1 := (fun x v => Host.reduce IntOp.andi x v reducesTo_S524288x16_S_d0_1 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S524288x16 : Shape := ⟨2, ![524288, 16]⟩
abbrev S64x16 : Shape := ⟨2, ![64, 16]⟩
abbrev S32x64 : Shape := ⟨2, ![32, 64]⟩
abbrev S32x32 : Shape := ⟨2, ![32, 32]⟩
abbrev S5x32 : Shape := ⟨2, ![5, 32]⟩
abbrev S16 : Shape := ⟨1, ![16]⟩
abbrev S64 : Shape := ⟨1, ![64]⟩
abbrev S5 : Shape := ⟨1, ![5]⟩
abbrev S_ : Shape := ⟨0, ![]⟩
abbrev S16x64 : Shape := ⟨2, ![16, 64]⟩
abbrev S64x32 : Shape := ⟨2, ![64, 32]⟩
abbrev S32x5 : Shape := ⟨2, ![32, 5]⟩
abbrev S1x16 : Shape := ⟨2, ![1, 16]⟩
abbrev S1x64 : Shape := ⟨2, ![1, 64]⟩
abbrev S1x5 : Shape := ⟨2, ![1, 5]⟩
abbrev S524288x5 : Shape := ⟨2, ![524288, 5]⟩
abbrev S8192x16 : Shape := ⟨2, ![8192, 16]⟩
abbrev S8192x5 : Shape := ⟨2, ![8192, 5]⟩
abbrev S8192x64 : Shape := ⟨2, ![8192, 64]⟩
abbrev S8192x32 : Shape := ⟨2, ![8192, 32]⟩

abbrev nBuf : Space → Nat
  | .hbm => 86
  | .vmem => 21
  | .smem => 0
  | _ => 0

abbrev bufTy : (tb : Table) → Fin (tcTables nBuf tb) → BufTy
  | .hbm, ⟨0, _⟩ => ⟨S524288x16, .f32⟩
  | .hbm, ⟨1, _⟩ => ⟨S64x16, .f32⟩
  | .hbm, ⟨2, _⟩ => ⟨S32x64, .f32⟩
  | .hbm, ⟨3, _⟩ => ⟨S32x32, .f32⟩
  | .hbm, ⟨4, _⟩ => ⟨S32x32, .f32⟩
  | .hbm, ⟨5, _⟩ => ⟨S5x32, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S5, .f32⟩
  | .hbm, ⟨15, _⟩ => ⟨S5, .f32⟩
  | .hbm, ⟨16, _⟩ => ⟨S5, .f32⟩
  | .hbm, ⟨17, _⟩ => ⟨S5, .f32⟩
  | .hbm, ⟨18, _⟩ => ⟨S64x16, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64x16, .f32⟩
  | .hbm, ⟨23, _⟩ => ⟨S64x16, .f32⟩
  | .hbm, ⟨24, _⟩ => ⟨S_, .f32⟩
  | .hbm, ⟨25, _⟩ => ⟨S64x16, .f32⟩
  | .hbm, ⟨26, _⟩ => ⟨S64x16, .f32⟩
  | .hbm, ⟨27, _⟩ => ⟨S16x64, .f32⟩
  | .hbm, ⟨28, _⟩ => ⟨S16x64, .bf16⟩
  | .hbm, ⟨29, _⟩ => ⟨S32x64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32x64, .f32⟩
  | .hbm, ⟨34, _⟩ => ⟨S32x64, .f32⟩
  | .hbm, ⟨35, _⟩ => ⟨S_, .f32⟩
  | .hbm, ⟨36, _⟩ => ⟨S32x64, .f32⟩
  | .hbm, ⟨37, _⟩ => ⟨S32x64, .f32⟩
  | .hbm, ⟨38, _⟩ => ⟨S64x32, .f32⟩
  | .hbm, ⟨39, _⟩ => ⟨S64x32, .bf16⟩
  | .hbm, ⟨40, _⟩ => ⟨S32x32, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S32x32, .f32⟩
  | .hbm, ⟨45, _⟩ => ⟨S32x32, .f32⟩
  | .hbm, ⟨46, _⟩ => ⟨S_, .f32⟩
  | .hbm, ⟨47, _⟩ => ⟨S32x32, .f32⟩
  | .hbm, ⟨48, _⟩ => ⟨S32x32, .f32⟩
  | .hbm, ⟨49, _⟩ => ⟨S32x32, .f32⟩
  | .hbm, ⟨50, _⟩ => ⟨S32x32, .bf16⟩
  | .hbm, ⟨51, _⟩ => ⟨S32x32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S32x32, .f32⟩
  | .hbm, ⟨56, _⟩ => ⟨S32x32, .f32⟩
  | .hbm, ⟨57, _⟩ => ⟨S_, .f32⟩
  | .hbm, ⟨58, _⟩ => ⟨S32x32, .f32⟩
  | .hbm, ⟨59, _⟩ => ⟨S32x32, .f32⟩
  | .hbm, ⟨60, _⟩ => ⟨S32x32, .f32⟩
  | .hbm, ⟨61, _⟩ => ⟨S32x32, .bf16⟩
  | .hbm, ⟨62, _⟩ => ⟨S5x32, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S5x32, .f32⟩
  | .hbm, ⟨67, _⟩ => ⟨S5x32, .f32⟩
  | .hbm, ⟨68, _⟩ => ⟨S_, .f32⟩
  | .hbm, ⟨69, _⟩ => ⟨S5x32, .f32⟩
  | .hbm, ⟨70, _⟩ => ⟨S5x32, .f32⟩
  | .hbm, ⟨71, _⟩ => ⟨S32x5, .f32⟩
  | .hbm, ⟨72, _⟩ => ⟨S32x5, .bf16⟩
  | .hbm, ⟨73, _⟩ => ⟨S1x16, .f32⟩
  | .hbm, ⟨74, _⟩ => ⟨S1x16, .f32⟩
  | .hbm, ⟨75, _⟩ => ⟨S1x16, .f32⟩
  | .hbm, ⟨76, _⟩ => ⟨S1x16, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S1x64, .f32⟩
  | .hbm, ⟨81, _⟩ => ⟨S1x5, .f32⟩
  | .hbm, ⟨82, _⟩ => ⟨S1x5, .f32⟩
  | .hbm, ⟨83, _⟩ => ⟨S1x5, .f32⟩
  | .hbm, ⟨84, _⟩ => ⟨S1x5, .f32⟩
  | .hbm, ⟨85, _⟩ => ⟨S524288x5, .f32⟩
  | .local _ .vmem, ⟨0, _⟩ => ⟨S8192x16, .f32⟩
  | .local _ .vmem, ⟨1, _⟩ => ⟨S8192x16, .f32⟩
  | .local _ .vmem, ⟨2, _⟩ => ⟨S16x64, .bf16⟩
  | .local _ .vmem, ⟨3, _⟩ => ⟨S64x32, .bf16⟩
  | .local _ .vmem, ⟨4, _⟩ => ⟨S32x32, .bf16⟩
  | .local _ .vmem, ⟨5, _⟩ => ⟨S32x32, .bf16⟩
  | .local _ .vmem, ⟨6, _⟩ => ⟨S32x5, .bf16⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S1x16, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x5, .f32⟩
  | .local _ .vmem, ⟨16, _⟩ => ⟨S1x5, .f32⟩
  | .local _ .vmem, ⟨17, _⟩ => ⟨S1x5, .f32⟩
  | .local _ .vmem, ⟨18, _⟩ => ⟨S1x5, .f32⟩
  | .local _ .vmem, ⟨19, _⟩ => ⟨S8192x5, .f32⟩
  | .local _ .vmem, ⟨20, _⟩ => ⟨S8192x5, .f32⟩
  | _, _ => ⟨S524288x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst_1 : Ref sig .tc := ⟨.hbm, 30, rfl⟩
abbrev main_cst_2 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst_3 : Ref sig .tc := ⟨.hbm, 41, rfl⟩
abbrev main_cst_4 : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_cst_5 : Ref sig .tc := ⟨.hbm, 52, rfl⟩
abbrev main_cst_6 : Ref sig .tc := ⟨.hbm, 53, rfl⟩
abbrev main_call7_v0 : Ref sig .tc := ⟨.hbm, 54, rfl⟩
abbrev main_call7_v1 : Ref sig .tc := ⟨.hbm, 55, rfl⟩
abbrev main_call7_v2 : Ref sig .tc := ⟨.hbm, 56, rfl⟩
abbrev main_call7_v3 : Ref sig .tc := ⟨.hbm, 57, rfl⟩
abbrev main_call7_v4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst_7 : Ref sig .tc := ⟨.hbm, 63, rfl⟩
abbrev main_cst_8 : Ref sig .tc := ⟨.hbm, 64, rfl⟩
abbrev main_call9_v0 : Ref sig .tc := ⟨.hbm, 65, rfl⟩
abbrev main_call9_v1 : Ref sig .tc := ⟨.hbm, 66, rfl⟩
abbrev main_call9_v2 : Ref sig .tc := ⟨.hbm, 67, rfl⟩
abbrev main_call9_v3 : Ref sig .tc := ⟨.hbm, 68, rfl⟩
abbrev main_call9_v4 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x5 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x5 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x5 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x5 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x5 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S8192x5 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  bcast_S_S64x16 : S_.BroadcastsInDim S64x16 (![] : Fin 0 → Fin S64x16.rank)
  transposes_S64x16_S16x64_1_0 : S64x16.Transposes [1, 0] S16x64
  bitsLt_bf16_f32 : FTy.bits .bf16 < FTy.bits .f32
  bcast_S_S32x64 : S_.BroadcastsInDim S32x64 (![] : Fin 0 → Fin S32x64.rank)
  transposes_S32x64_S64x32_1_0 : S32x64.Transposes [1, 0] S64x32
  bcast_S_S32x32 : S_.BroadcastsInDim S32x32 (![] : Fin 0 → Fin S32x32.rank)
  transposes_S32x32_S32x32_1_0 : S32x32.Transposes [1, 0] S32x32
  bcast_S_S5x32 : S_.BroadcastsInDim S5x32 (![] : Fin 0 → Fin S5x32.rank)
  transposes_S5x32_S32x5_1_0 : S5x32.Transposes [1, 0] S32x5
  shapeCasts_S16_S1x16 : S16.ShapeCasts S1x16
  shapeCasts_S64_S1x64 : S64.ShapeCasts S1x64
  shapeCasts_S5_S1x5 : S5.ShapeCasts S1x5
  inb_S8192x16_S8192x16_0_0 : ∀ a, (![0, 0] : Fin 2 → Nat) a + S8192x16.size a ≤ S8192x16.size a
  h_S8192x16 : 0 < S8192x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x5_S32x5_0_0 : ∀ a, (![0, 0] : Fin 2 → Nat) a + S32x5.size a ≤ S32x5.size a
  h_S32x5 : 0 < S32x5.numel
  shapeCasts_S32x5_S32x5 : S32x5.ShapeCasts S32x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S8192x5 : S1x5.Broadcasts S8192x5
  inb_S8192x5_S8192x5_0_0 : ∀ a, (![0, 0] : Fin 2 → Nat) a + S8192x5.size a ≤ S8192x5.size a
  h_S8192x5 : 0 < S8192x5.numel
  dot_S8192x16_S16x64_S8192x64_1_0_0_1_n_n_wf : DotDims.WF S8192x16 S16x64 S8192x64 [1] [0] [0] [1] [] []
  dot_S8192x64_S64x32_S8192x32_1_0_0_1_n_n_wf : DotDims.WF S8192x64 S64x32 S8192x32 [1] [0] [0] [1] [] []
  dot_S8192x32_S32x32_S8192x32_1_0_0_1_n_n_wf : DotDims.WF S8192x32 S32x32 S8192x32 [1] [0] [0] [1] [] []
  dot_S8192x32_S32x5_S8192x5_1_0_0_1_n_n_wf : DotDims.WF S8192x32 S32x5 S8192x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S524288x16.size a
  hwx0_0 : ∀ i : grid0.Coords, EltTy.bits .f32 = 32 ∨ (Rect.block (s := S524288x16) S8192x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .bf16 = 32 ∨ (Rect.block (s := S16x64) S16x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .bf16 = 32 ∨ (Rect.block (s := S64x32) S64x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .bf16 = 32 ∨ (Rect.block (s := S32x32) S32x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .bf16 = 32 ∨ (Rect.block (s := S32x32) S32x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x5.size a ≤ S32x5.size a
  hwx0_5 : ∀ i : grid0.Coords, EltTy.bits .bf16 = 32 ∨ (Rect.block (s := S32x5) S32x5.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x5.size a ≤ S1x5.size a
  hwx0_14 : ∀ i : grid0.Coords, EltTy.bits .f32 = 32 ∨ (Rect.block (s := S1x5) S1x5.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x5.size a ≤ S1x5.size a
  hwx0_15 : ∀ i : grid0.Coords, EltTy.bits .f32 = 32 ∨ (Rect.block (s := S1x5) S1x5.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x5.size a ≤ S1x5.size a
  hwx0_16 : ∀ i : grid0.Coords, EltTy.bits .f32 = 32 ∨ (Rect.block (s := S1x5) S1x5.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x5.size a ≤ S1x5.size a
  hwx0_17 : ∀ i : grid0.Coords, EltTy.bits .f32 = 32 ∨ (Rect.block (s := S1x5) S1x5.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S8192x5.size a ≤ S524288x5.size a
  hwx0_18 : ∀ i : grid0.Coords, EltTy.bits .f32 = 32 ∨ (Rect.block (s := S524288x5) S8192x5.size (cc0_transform_18 i) (hinb0_18 i)).WholeWords (EltTy.packing .f32)

variable [Facts₀]

def dot_S8192x16_S16x64_S8192x64_1_0_0_1_n_n : DotDims S8192x16 S16x64 S8192x64 where
  lhsContracting := [1]
  rhsContracting := [0]
  lhsNonContracting := [0]
  rhsNonContracting := [1]
  lhsBatch := []
  rhsBatch := []
  wf := dot_S8192x16_S16x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x5_S8192x5_1_0_0_1_n_n : DotDims S8192x32 S32x5 S8192x5 where
  lhsContracting := [1]
  rhsContracting := [0]
  lhsNonContracting := [0]
  rhsNonContracting := [1]
  lhsBatch := []
  rhsBatch := []
  wf := dot_S8192x32_S32x5_S8192x5_1_0_0_1_n_n_wf

abbrev win0_0 : Pipeline.Window sig grid0 :=
  Pipeline.Window.ofSpec (Memref.whole main_arg0) S8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S32x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S1x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v26) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v27) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v28) S1x5.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v29) S1x5.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v30) S1x5.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v31) S1x5.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v32) S8192x5.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S524288x16 : Shape := ⟨2, ![524288, 16]⟩
abbrev S64x16 : Shape := ⟨2, ![64, 16]⟩
abbrev S32x64 : Shape := ⟨2, ![32, 64]⟩
abbrev S32x32 : Shape := ⟨2, ![32, 32]⟩
abbrev S5x32 : Shape := ⟨2, ![5, 32]⟩
abbrev S16 : Shape := ⟨1, ![16]⟩
abbrev S64 : Shape := ⟨1, ![64]⟩
abbrev S5 : Shape := ⟨1, ![5]⟩
abbrev S1x16 : Shape := ⟨2, ![1, 16]⟩
abbrev S_ : Shape := ⟨0, ![]⟩
abbrev S16x64 : Shape := ⟨2, ![16, 64]⟩
abbrev S524288x64 : Shape := ⟨2, ![524288, 64]⟩
abbrev S1x64 : Shape := ⟨2, ![1, 64]⟩
abbrev S64x32 : Shape := ⟨2, ![64, 32]⟩
abbrev S524288x32 : Shape := ⟨2, ![524288, 32]⟩
abbrev S32x5 : Shape := ⟨2, ![32, 5]⟩
abbrev S524288x5 : Shape := ⟨2, ![524288, 5]⟩
abbrev S1x5 : Shape := ⟨2, ![1, 5]⟩

abbrev nBuf : Space → Nat
  | .hbm => 204
  | .vmem => 0
  | .smem => 0
  | _ => 0

abbrev hbmTy0_0 (i : Nat) : BufTy := match i % 128 with
  | 0 => ⟨S524288x16, .f32⟩
  | 1 => ⟨S64x16, .f32⟩
  | 2 => ⟨S32x64, .f32⟩
  | 3 => ⟨S32x32, .f32⟩
  | 4 => ⟨S32x32, .f32⟩
  | 5 => ⟨S5x32, .f32⟩
  | 6 => ⟨S16, .f32⟩
  | 7 => ⟨S16, .f32⟩
  | 8 => ⟨S16, .f32⟩
  | 9 => ⟨S16, .f32⟩
  | 10 => ⟨S64, .f32⟩
  | 11 => ⟨S64, .f32⟩
  | 12 => ⟨S64, .f32⟩
  | 13 => ⟨S64, .f32⟩
  | 14 => ⟨S5, .f32⟩
  | 15 => ⟨S5, .f32⟩
  | 16 => ⟨S5, .f32⟩
  | 17 => ⟨S5, .f32⟩
  | 18 => ⟨S1x16, .f32⟩
  | 19 => ⟨S524288x16, .f32⟩
  | 20 => ⟨S524288x16, .f32⟩
  | 21 => ⟨S_, .f32⟩
  | 22 => ⟨S16, .f32⟩
  | 23 => ⟨S16, .f32⟩
  | 24 => ⟨S16, .f32⟩
  | 25 => ⟨S1x16, .f32⟩
  | 26 => ⟨S524288x16, .f32⟩
  | 27 => ⟨S524288x16, .f32⟩
  | 28 => ⟨S1x16, .f32⟩
  | 29 => ⟨S524288x16, .f32⟩
  | 30 => ⟨S524288x16, .f32⟩
  | 31 => ⟨S1x16, .f32⟩
  | 32 => ⟨S524288x16, .f32⟩
  | 33 => ⟨S524288x16, .f32⟩
  | 34 => ⟨S_, .f32⟩
  | 35 => ⟨S524288x16, .f32⟩
  | 36 => ⟨S524288x16, .f32⟩
  | 37 => ⟨S524288x16, .f32⟩
  | 38 => ⟨S524288x16, .f32⟩
  | 39 => ⟨S524288x16, .f32⟩
  | 40 => ⟨S_, .f32⟩
  | 41 => ⟨S_, .f32⟩
  | 42 => ⟨S_, .f32⟩
  | 43 => ⟨S524288x16, .f32⟩
  | 44 => ⟨S524288x16, .f32⟩
  | 45 => ⟨S_, .f32⟩
  | 46 => ⟨S524288x16, .f32⟩
  | 47 => ⟨S524288x16, .f32⟩
  | 48 => ⟨S64x16, .f32⟩
  | 49 => ⟨S64x16, .f32⟩
  | 50 => ⟨S64x16, .f32⟩
  | 51 => ⟨S_, .f32⟩
  | 52 => ⟨S_, .f32⟩
  | 53 => ⟨S_, .f32⟩
  | 54 => ⟨S64x16, .f32⟩
  | 55 => ⟨S64x16, .f32⟩
  | 56 => ⟨S_, .f32⟩
  | 57 => ⟨S64x16, .f32⟩
  | 58 => ⟨S64x16, .f32⟩
  | 59 => ⟨S16x64, .f32⟩
  | 60 => ⟨S524288x64, .f32⟩
  | 61 => ⟨S1x64, .f32⟩
  | 62 => ⟨S524288x64, .f32⟩
  | 63 => ⟨S524288x64, .f32⟩
  | 64 => ⟨S_, .f32⟩
  | 65 => ⟨S64, .f32⟩
  | 66 => ⟨S64, .f32⟩
  | 67 => ⟨S64, .f32⟩
  | 68 => ⟨S1x64, .f32⟩
  | 69 => ⟨S524288x64, .f32⟩
  | 70 => ⟨S524288x64, .f32⟩
  | 71 => ⟨S1x64, .f32⟩
  | 72 => ⟨S524288x64, .f32⟩
  | 73 => ⟨S524288x64, .f32⟩
  | 74 => ⟨S1x64, .f32⟩
  | 75 => ⟨S524288x64, .f32⟩
  | 76 => ⟨S524288x64, .f32⟩
  | 77 => ⟨S_, .f32⟩
  | 78 => ⟨S524288x64, .f32⟩
  | 79 => ⟨S524288x64, .f32⟩
  | 80 => ⟨S524288x64, .f32⟩
  | 81 => ⟨S524288x64, .f32⟩
  | 82 => ⟨S524288x64, .f32⟩
  | 83 => ⟨S_, .f32⟩
  | 84 => ⟨S_, .f32⟩
  | 85 => ⟨S_, .f32⟩
  | 86 => ⟨S524288x64, .f32⟩
  | 87 => ⟨S524288x64, .f32⟩
  | 88 => ⟨S_, .f32⟩
  | 89 => ⟨S524288x64, .f32⟩
  | 90 => ⟨S524288x64, .f32⟩
  | 91 => ⟨S32x64, .f32⟩
  | 92 => ⟨S32x64, .f32⟩
  | 93 => ⟨S32x64, .f32⟩
  | 94 => ⟨S_, .f32⟩
  | 95 => ⟨S_, .f32⟩
  | 96 => ⟨S_, .f32⟩
  | 97 => ⟨S32x64, .f32⟩
  | 98 => ⟨S32x64, .f32⟩
  | 99 => ⟨S_, .f32⟩
  | 100 => ⟨S32x64, .f32⟩
  | 101 => ⟨S32x64, .f32⟩
  | 102 => ⟨S64x32, .f32⟩
  | 103 => ⟨S524288x32, .f32⟩
  | 104 => ⟨S_, .f32⟩
  | 105 => ⟨S524288x32, .f32⟩
  | 106 => ⟨S524288x32, .f32⟩
  | 107 => ⟨S524288x32, .f32⟩
  | 108 => ⟨S524288x32, .f32⟩
  | 109 => ⟨S524288x32, .f32⟩
  | 110 => ⟨S_, .f32⟩
  | 111 => ⟨S_, .f32⟩
  | 112 => ⟨S_, .f32⟩
  | 113 => ⟨S524288x32, .f32⟩
  | 114 => ⟨S524288x32, .f32⟩
  | 115 => ⟨S_, .f32⟩
  | 116 => ⟨S524288x32, .f32⟩
  | 117 => ⟨S524288x32, .f32⟩
  | 118 => ⟨S32x32, .f32⟩
  | 119 => ⟨S32x32, .f32⟩
  | 120 => ⟨S32x32, .f32⟩
  | 121 => ⟨S_, .f32⟩
  | 122 => ⟨S_, .f32⟩
  | 123 => ⟨S_, .f32⟩
  | 124 => ⟨S32x32, .f32⟩
  | 125 => ⟨S32x32, .f32⟩
  | 126 => ⟨S_, .f32⟩
  | 127 => ⟨S32x32, .f32⟩
  | _ => ⟨S524288x16, .f32⟩

abbrev hbmTy0_1 (i : Nat) : BufTy := match i % 128 with
  | 0 => ⟨S32x32, .f32⟩
  | 1 => ⟨S32x32, .f32⟩
  | 2 => ⟨S524288x32, .f32⟩
  | 3 => ⟨S_, .f32⟩
  | 4 => ⟨S524288x32, .f32⟩
  | 5 => ⟨S524288x32, .f32⟩
  | 6 => ⟨S524288x32, .f32⟩
  | 7 => ⟨S524288x32, .f32⟩
  | 8 => ⟨S524288x32, .f32⟩
  | 9 => ⟨S_, .f32⟩
  | 10 => ⟨S_, .f32⟩
  | 11 => ⟨S_, .f32⟩
  | 12 => ⟨S524288x32, .f32⟩
  | 13 => ⟨S524288x32, .f32⟩
  | 14 => ⟨S_, .f32⟩
  | 15 => ⟨S524288x32, .f32⟩
  | 16 => ⟨S524288x32, .f32⟩
  | 17 => ⟨S32x32, .f32⟩
  | 18 => ⟨S32x32, .f32⟩
  | 19 => ⟨S32x32, .f32⟩
  | 20 => ⟨S_, .f32⟩
  | 21 => ⟨S_, .f32⟩
  | 22 => ⟨S_, .f32⟩
  | 23 => ⟨S32x32, .f32⟩
  | 24 => ⟨S32x32, .f32⟩
  | 25 => ⟨S_, .f32⟩
  | 26 => ⟨S32x32, .f32⟩
  | 27 => ⟨S32x32, .f32⟩
  | 28 => ⟨S32x32, .f32⟩
  | 29 => ⟨S524288x32, .f32⟩
  | 30 => ⟨S_, .f32⟩
  | 31 => ⟨S524288x32, .f32⟩
  | 32 => ⟨S524288x32, .f32⟩
  | 33 => ⟨S524288x32, .f32⟩
  | 34 => ⟨S524288x32, .f32⟩
  | 35 => ⟨S524288x32, .f32⟩
  | 36 => ⟨S_, .f32⟩
  | 37 => ⟨S_, .f32⟩
  | 38 => ⟨S_, .f32⟩
  | 39 => ⟨S524288x32, .f32⟩
  | 40 => ⟨S524288x32, .f32⟩
  | 41 => ⟨S_, .f32⟩
  | 42 => ⟨S524288x32, .f32⟩
  | 43 => ⟨S524288x32, .f32⟩
  | 44 => ⟨S5x32, .f32⟩
  | 45 => ⟨S5x32, .f32⟩
  | 46 => ⟨S5x32, .f32⟩
  | 47 => ⟨S_, .f32⟩
  | 48 => ⟨S_, .f32⟩
  | 49 => ⟨S_, .f32⟩
  | 50 => ⟨S5x32, .f32⟩
  | 51 => ⟨S5x32, .f32⟩
  | 52 => ⟨S_, .f32⟩
  | 53 => ⟨S5x32, .f32⟩
  | 54 => ⟨S5x32, .f32⟩
  | 55 => ⟨S32x5, .f32⟩
  | 56 => ⟨S524288x5, .f32⟩
  | 57 => ⟨S1x5, .f32⟩
  | 58 => ⟨S524288x5, .f32⟩
  | 59 => ⟨S524288x5, .f32⟩
  | 60 => ⟨S_, .f32⟩
  | 61 => ⟨S5, .f32⟩
  | 62 => ⟨S5, .f32⟩
  | 63 => ⟨S5, .f32⟩
  | 64 => ⟨S1x5, .f32⟩
  | 65 => ⟨S524288x5, .f32⟩
  | 66 => ⟨S524288x5, .f32⟩
  | 67 => ⟨S1x5, .f32⟩
  | 68 => ⟨S524288x5, .f32⟩
  | 69 => ⟨S524288x5, .f32⟩
  | 70 => ⟨S1x5, .f32⟩
  | 71 => ⟨S524288x5, .f32⟩
  | 72 => ⟨S524288x5, .f32⟩
  | 73 => ⟨S_, .f32⟩
  | 74 => ⟨S524288x5, .f32⟩
  | 75 => ⟨S524288x5, .f32⟩
  | _ => ⟨S524288x16, .f32⟩

abbrev hbmTy (i : Nat) : BufTy := match i / 128 with
  | 0 => hbmTy0_0 i
  | 1 => hbmTy0_1 i
  | _ => ⟨S524288x16, .f32⟩

abbrev bufTy : (tb : Table) → Fin (tcTables nBuf tb) → BufTy
  | .hbm, ⟨i, _⟩ => hbmTy i
  | _, _ => ⟨S524288x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call0_cst : Ref sig .tc := ⟨.hbm, 34, rfl⟩
abbrev main_call0_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_cst_1 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_2 : Ref sig .tc := ⟨.hbm, 51, rfl⟩
abbrev main_cst_3 : Ref sig .tc := ⟨.hbm, 52, rfl⟩
abbrev main_call4_v0 : Ref sig .tc := ⟨.hbm, 53, rfl⟩
abbrev main_call4_v1 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_4 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_call5_cst : Ref sig .tc := ⟨.hbm, 77, rfl⟩
abbrev main_call5_v0 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_5 : Ref sig .tc := ⟨.hbm, 83, rfl⟩
abbrev main_cst_6 : Ref sig .tc := ⟨.hbm, 84, rfl⟩
abbrev main_call7_v0 : Ref sig .tc := ⟨.hbm, 85, rfl⟩
abbrev main_call7_v1 : Ref sig .tc := ⟨.hbm, 86, rfl⟩
abbrev main_call7_v2 : Ref sig .tc := ⟨.hbm, 87, rfl⟩
abbrev main_call7_v3 : Ref sig .tc := ⟨.hbm, 88, rfl⟩
abbrev main_call7_v4 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_7 : Ref sig .tc := ⟨.hbm, 94, rfl⟩
abbrev main_cst_8 : Ref sig .tc := ⟨.hbm, 95, rfl⟩
abbrev main_call9_v0 : Ref sig .tc := ⟨.hbm, 96, rfl⟩
abbrev main_call9_v1 : Ref sig .tc := ⟨.hbm, 97, rfl⟩
abbrev main_call9_v2 : Ref sig .tc := ⟨.hbm, 98, rfl⟩
abbrev main_call9_v3 : Ref sig .tc := ⟨.hbm, 99, rfl⟩
abbrev main_call9_v4 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_call10_cst : Ref sig .tc := ⟨.hbm, 104, rfl⟩
abbrev main_call10_v0 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_9 : Ref sig .tc := ⟨.hbm, 110, rfl⟩
abbrev main_cst_10 : Ref sig .tc := ⟨.hbm, 111, rfl⟩
abbrev main_call12_v0 : Ref sig .tc := ⟨.hbm, 112, rfl⟩
abbrev main_call12_v1 : Ref sig .tc := ⟨.hbm, 113, rfl⟩
abbrev main_call12_v2 : Ref sig .tc := ⟨.hbm, 114, rfl⟩
abbrev main_call12_v3 : Ref sig .tc := ⟨.hbm, 115, rfl⟩
abbrev main_call12_v4 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_cst_11 : Ref sig .tc := ⟨.hbm, 121, rfl⟩
abbrev main_cst_12 : Ref sig .tc := ⟨.hbm, 122, rfl⟩
abbrev main_call14_v0 : Ref sig .tc := ⟨.hbm, 123, rfl⟩
abbrev main_call14_v1 : Ref sig .tc := ⟨.hbm, 124, rfl⟩
abbrev main_call14_v2 : Ref sig .tc := ⟨.hbm, 125, rfl⟩
abbrev main_call14_v3 : Ref sig .tc := ⟨.hbm, 126, rfl⟩
abbrev main_call14_v4 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_call15_cst : Ref sig .tc := ⟨.hbm, 131, rfl⟩
abbrev main_call15_v0 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_cst_13 : Ref sig .tc := ⟨.hbm, 137, rfl⟩
abbrev main_cst_14 : Ref sig .tc := ⟨.hbm, 138, rfl⟩
abbrev main_call17_v0 : Ref sig .tc := ⟨.hbm, 139, rfl⟩
abbrev main_call17_v1 : Ref sig .tc := ⟨.hbm, 140, rfl⟩
abbrev main_call17_v2 : Ref sig .tc := ⟨.hbm, 141, rfl⟩
abbrev main_call17_v3 : Ref sig .tc := ⟨.hbm, 142, rfl⟩
abbrev main_call17_v4 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_cst_15 : Ref sig .tc := ⟨.hbm, 148, rfl⟩
abbrev main_cst_16 : Ref sig .tc := ⟨.hbm, 149, rfl⟩
abbrev main_call19_v0 : Ref sig .tc := ⟨.hbm, 150, rfl⟩
abbrev main_call19_v1 : Ref sig .tc := ⟨.hbm, 151, rfl⟩
abbrev main_call19_v2 : Ref sig .tc := ⟨.hbm, 152, rfl⟩
abbrev main_call19_v3 : Ref sig .tc := ⟨.hbm, 153, rfl⟩
abbrev main_call19_v4 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_call20_cst : Ref sig .tc := ⟨.hbm, 158, rfl⟩
abbrev main_call20_v0 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_cst_17 : Ref sig .tc := ⟨.hbm, 164, rfl⟩
abbrev main_cst_18 : Ref sig .tc := ⟨.hbm, 165, rfl⟩
abbrev main_call22_v0 : Ref sig .tc := ⟨.hbm, 166, rfl⟩
abbrev main_call22_v1 : Ref sig .tc := ⟨.hbm, 167, rfl⟩
abbrev main_call22_v2 : Ref sig .tc := ⟨.hbm, 168, rfl⟩
abbrev main_call22_v3 : Ref sig .tc := ⟨.hbm, 169, rfl⟩
abbrev main_call22_v4 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_cst_19 : Ref sig .tc := ⟨.hbm, 175, rfl⟩
abbrev main_cst_20 : Ref sig .tc := ⟨.hbm, 176, rfl⟩
abbrev main_call24_v0 : Ref sig .tc := ⟨.hbm, 177, rfl⟩
abbrev main_call24_v1 : Ref sig .tc := ⟨.hbm, 178, rfl⟩
abbrev main_call24_v2 : Ref sig .tc := ⟨.hbm, 179, rfl⟩
abbrev main_call24_v3 : Ref sig .tc := ⟨.hbm, 180, rfl⟩
abbrev main_call24_v4 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_cst_21 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_call25_cst : Ref sig .tc := ⟨.hbm, 201, rfl⟩
abbrev main_call25_v0 : Ref sig .tc := ⟨.hbm, 202, rfl⟩
abbrev main_v100 : Ref sig .tc := ⟨.hbm, 203, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  bcast_S_S16 : S_.BroadcastsInDim S16 (![] : Fin 0 → Fin S16.rank)
  bcast_S_S524288x16 : S_.BroadcastsInDim S524288x16 (![] : Fin 0 → Fin S524288x16.rank)
  bcast_S_S64x16 : S_.BroadcastsInDim S64x16 (![] : Fin 0 → Fin S64x16.rank)
  transposes_S64x16_S16x64_1_0 : S64x16.Transposes [1, 0] S16x64
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S64 : S_.BroadcastsInDim S64 (![] : Fin 0 → Fin S64.rank)
  bcast_S_S524288x64 : S_.BroadcastsInDim S524288x64 (![] : Fin 0 → Fin S524288x64.rank)
  bcast_S_S32x64 : S_.BroadcastsInDim S32x64 (![] : Fin 0 → Fin S32x64.rank)
  transposes_S32x64_S64x32_1_0 : S32x64.Transposes [1, 0] S64x32
  bcast_S_S524288x32 : S_.BroadcastsInDim S524288x32 (![] : Fin 0 → Fin S524288x32.rank)
  bcast_S_S32x32 : S_.BroadcastsInDim S32x32 (![] : Fin 0 → Fin S32x32.rank)
  transposes_S32x32_S32x32_1_0 : S32x32.Transposes [1, 0] S32x32
  bcast_S_S5x32 : S_.BroadcastsInDim S5x32 (![] : Fin 0 → Fin S5x32.rank)
  transposes_S5x32_S32x5_1_0 : S5x32.Transposes [1, 0] S32x5
  bcast_S5_S1x5_1 : S5.BroadcastsInDim S1x5 (![1] : Fin 1 → Fin S1x5.rank)
  bcast_S1x5_S524288x5_0_1 : S1x5.BroadcastsInDim S524288x5 (![0, 1] : Fin 2 → Fin S524288x5.rank)
  bcast_S_S5 : S_.BroadcastsInDim S5 (![] : Fin 0 → Fin S5.rank)
  bcast_S_S524288x5 : S_.BroadcastsInDim S524288x5 (![] : Fin 0 → Fin S524288x5.rank)
  dot_S524288x16_S16x64_S524288x64_1_0_0_1_n_n_wf : DotDims.WF S524288x16 S16x64 S524288x64 [1] [0] [0] [1] [] []
  dot_S524288x64_S64x32_S524288x32_1_0_0_1_n_n_wf : DotDims.WF S524288x64 S64x32 S524288x32 [1] [0] [0] [1] [] []
  dot_S524288x32_S32x32_S524288x32_1_0_0_1_n_n_wf : DotDims.WF S524288x32 S32x32 S524288x32 [1] [0] [0] [1] [] []
  dot_S524288x32_S32x5_S524288x5_1_0_0_1_n_n_wf : DotDims.WF S524288x32 S32x5 S524288x5 [1] [0] [0] [1] [] []

variable [Facts₀]

def dot_S524288x16_S16x64_S524288x64_1_0_0_1_n_n : DotDims S524288x16 S16x64 S524288x64 where
  lhsContracting := [1]
  rhsContracting := [0]
  lhsNonContracting := [0]
  rhsNonContracting := [1]
  lhsBatch := []
  rhsBatch := []
  wf := dot_S524288x16_S16x64_S524288x64_1_0_0_1_n_n_wf
def dot_S524288x64_S64x32_S524288x32_1_0_0_1_n_n : DotDims S524288x64 S64x32 S524288x32 where
  lhsContracting := [1]
  rhsContracting := [0]
  lhsNonContracting := [0]
  rhsNonContracting := [1]
  lhsBatch := []
  rhsBatch := []
  wf := dot_S524288x64_S64x32_S524288x32_1_0_0_1_n_n_wf
def dot_S524288x32_S32x32_S524288x32_1_0_0_1_n_n : DotDims S524288x32 S32x32 S524288x32 where
  lhsContracting := [1]
  rhsContracting := [0]
  lhsNonContracting := [0]
  rhsNonContracting := [1]
  lhsBatch := []
  rhsBatch := []
  wf := dot_S524288x32_S32x32_S524288x32_1_0_0_1_n_n_wf
def dot_S524288x32_S32x5_S524288x5_1_0_0_1_n_n : DotDims S524288x32 S32x5 S524288x5 where
  lhsContracting := [1]
  rhsContracting := [0]
  lhsNonContracting := [0]
  rhsNonContracting := [1]
  lhsBatch := []
  rhsBatch := []
  wf := dot_S524288x32_S32x5_S524288x5_1_0_0_1_n_n_wf

class Facts : Prop extends Facts₀ where

variable [Facts]
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«109735_j6528350290491_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.LibRowLayers.lean ====
/-
  The layers of a small perceptron applied to a block of `R` rows at once, read at one row `p`.

  Each lemma takes what the layer's input holds in row `p` (`ha : ∀ k, a (p, k) = row k`) and says what the
  layer's output holds at `(p, j)`, as a function of `row` alone — so a stack of layers is read by stacking the
  lemmas, one row at a time, whatever the number of rows in the block:

  * `product_apply` — the matrix unit's product with a `[K, N]` weight block into a zero accumulator:
    `∑ k, row k · w (k, j)`;
  * `bias_apply` — a `[1, N]` row repeated down the rows: its entry in column `j`;
  * `dense_apply`, `denseWith_apply` — product plus bias, and product plus an outer product `u (p) · wu (j)` of a
    one-column array with a one-row array plus bias (a layer whose last input coordinate is kept apart);
  * `unit_apply` — the rows divided by their Euclidean lengths (sum of squares along the row, kept as a column,
    square root, maximum with a floor, column repeated along the row, quotient):
    `row j / max (√(∑ k, row k²)) floor`.

  Only the definitions of the operations on the extended reals are used; nothing needs the entries to be finite.
-/
import Idealize.ShloMosaic.PureOps.Ideal.Laws
import Idealize.ShloMosaic.Lib.ValueIdx
import Idealize.ShloMosaic.Lib.ValueLayout
import Idealize.ShloMosaic.Lib.Pipeline.Value
import proofs.«109735_j6528350290491_1_alg».proof.Proof.LibRowsTimes
import proofs.«109735_j6528350290491_1_alg».proof.Proof.LibRowsCols
import proofs.«109735_j6528350290491_1_alg».proof.Proof.LibColumnLayout

noncomputable section

namespace Cert.RowLayers

open Idealize.ShloMosaic Idealize.ShloMosaic.ValueIdx Cert.Dense

variable {R K N : Nat}

/-- A `[1, N]` row (cast to its own shape) repeated down `R` rows reads, at `(p, j)`, the row at `j`. -/
theorem bias_apply {α : Type} (b : (⟨2, ![1, N]⟩ : Shape).Idx → α) (h₁ : (⟨2, ![1, N]⟩ : Shape).ShapeCasts ⟨2, ![1, N]⟩)
    (h₂ : (⟨2, ![1, N]⟩ : Shape).Broadcasts ⟨2, ![R, N]⟩) (p : Fin R) (j : Fin N) :
    broadcastTo ⟨2, ![R, N]⟩ (shapeCast ⟨2, ![1, N]⟩ b h₁) h₂ (ix2 p j) = b (ix2 (0 : Fin 1) j) := by
  rw [shapeCast_self]; exact broadcastTo_1b_ab_apply b h₂ p j

/-- The matrix unit's product of a block whose row `p` is `row` with a weight block, into the zero accumulator,
    at `(p, j)`: `∑ k, row k · w (k, j)`. -/
theorem product_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩) (p : Fin R) (j : Fin N)
    (row : Fin K → EReal) (ha : ∀ k, a (ix2 p k) = row k) :
    matmul d prec a (shapeCast ⟨2, ![K, N]⟩ w hc) (constant (F := Ideal) ⟨2, ![R, N]⟩ .f32 0x00000000#32) (ix2 p j)
      = ∑ k : Fin K, row k * w (ix2 k j) := by
  rw [shapeCast_self]
  refine (matmul_zero_apply hd prec a w (ix2 p j)).trans ?_
  exact Finset.sum_congr rfl fun k _ => congrArg (· * w (ix2 k j)) (ha k)

/-- Product plus bias at `(p, j)`. -/
theorem dense_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (matmul d prec a (shapeCast ⟨2, ![K, N]⟩ w hc) (constant (F := Ideal) ⟨2, ![R, N]⟩ .f32 0x00000000#32))
        (broadcastTo ⟨2, ![R, N]⟩ (shapeCast ⟨2, ![1, N]⟩ b hb₁) hb₂) (ix2 p j)
      = (∑ k : Fin K, row k * w (ix2 k j)) + b (ix2 (0 : Fin 1) j) :=
  (addf_apply _ _ _).trans (congrArg₂ (· + ·) (product_apply d hd prec a w hc p j row ha) (bias_apply b hb₁ hb₂ p j))

/-- Product, plus the outer product of a one-column array `u` with a one-row array `wu`, plus bias, at `(p, j)`. -/
theorem denseWith_apply (d : DotDims ⟨2, ![R, K]⟩ ⟨2, ![K, N]⟩ ⟨2, ![R, N]⟩) (hd : RowsCols d)
    (prec : Option ContractPrecision) {φ₁ φ₂ : FTy}
    (a : FVec Ideal ⟨2, ![R, K]⟩ φ₁) (w : FVec Ideal ⟨2, ![K, N]⟩ φ₂)
    (hc : (⟨2, ![K, N]⟩ : Shape).ShapeCasts ⟨2, ![K, N]⟩)
    (u : FVec Ideal ⟨2, ![R, 1]⟩ .f32) (hu : (⟨2, ![R, 1]⟩ : Shape).Broadcasts ⟨2, ![R, N]⟩)
    (wu : FVec Ideal ⟨2, ![1, N]⟩ .f32) (hw₁ : (⟨2, ![1, N]⟩ : Shape).ShapeCasts ⟨2, ![1, N]⟩)
    (hw₂ : (⟨2, ![1, N]⟩ : Shape).Broadcasts ⟨2, ![R, N]⟩)
    (b : FVec Ideal ⟨2, ![1, N]⟩ .f32) (hb₁ : (⟨2, ![1, N]⟩ : Shape).ShapeCasts ⟨2, ![1, N]⟩)
    (hb₂ : (⟨2, ![1, N]⟩ : Shape).Broadcasts ⟨2, ![R, N]⟩) (p : Fin R) (j : Fin N)
    (row : Fin K → EReal) (ha : ∀ k, a (ix2 p k) = row k) :
    addf (addf (matmul d prec a (shapeCast ⟨2, ![K, N]⟩ w hc) (constant (F := Ideal) ⟨2, ![R, N]⟩ .f32 0x00000000#32))
          (mulf (broadcastTo ⟨2, ![R, N]⟩ u hu) (broadcastTo ⟨2, ![R, N]⟩ (shapeCast ⟨2, ![1, N]⟩ wu hw₁) hw₂)))
        (broadcastTo ⟨2, ![R, N]⟩ (shapeCast ⟨2, ![1, N]⟩ b hb₁) hb₂) (ix2 p j)
      = (∑ k : Fin K, row k * w (ix2 k j)) + u (ix2 p (0 : Fin 1)) * wu (ix2 (0 : Fin 1) j) + b (ix2 (0 : Fin 1) j) :=
  (addf_apply _ _ _).trans (congrArg₂ (· + ·)
    ((addf_apply _ _ _).trans (congrArg₂ (· + ·) (product_apply d hd prec a w hc p j row ha)
      ((mulf_apply _ _ _).trans (congrArg₂ (· * ·) (ColumnLayout.broadcastTo_a1_ab_apply u hu p j) (bias_apply wu hw₁ hw₂ p j)))))
    (bias_apply b hb₁ hb₂ p j))

/-- The index a sum along the row inserts: `(p, k)`. -/
theorem lift_row (hred : (⟨2, ![R, N]⟩ : Shape).Reduces [1] ⟨1, ![R]⟩) (p : Fin R) (k : Fin N) :
    hred.lift (ix1 p) k = ix2 p k := by
  funext x; apply Fin.ext
  match x with
  | ⟨0, _⟩ => rfl
  | ⟨1, _⟩ => rfl

/-- The rows divided by their Euclidean lengths kept above a floor, at `(p, j)`. -/
theorem unit_apply (a : FVec Ideal ⟨2, ![R, N]⟩ .f32) (fl : BitVec 32)
    (hred : (⟨2, ![R, N]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, N]⟩)
    (p : Fin R) (j : Fin N) (row : Fin N → EReal) (ha : ∀ k, a (ix2 p k) = row k) :
    divf a (broadcastTo ⟨2, ![R, N]⟩
        (maximumf (sqrt (shapeCast ⟨2, ![R, 1]⟩ (multiReduction .add [1] ⟨1, ![R]⟩ (mulf a a) 0x00000000#32 hred hφ hacc) hc))
          (broadcast ⟨2, ![R, 1]⟩ (Scalar.ofBits .f32 fl))) hb) (ix2 p j)
      = Ideal.div (row j) (max (Ideal.sqrt (∑ k : Fin N, row k * row k)) (Ideal.ofBits .f32 fl)) := by
  refine (divf_apply _ _ _).trans ?_
  rw [ColumnLayout.broadcastTo_a1_ab_apply _ hb p j, ha j]
  refine congrArg (fun s => Ideal.div (row j) (max (Ideal.sqrt s) (Ideal.ofBits .f32 fl))) ?_
  refine (ColumnLayout.shapeCast_a_a1_apply _ hc p 0).trans ?_
  refine (Ideal.multiReduction_add_single (mulf a a) 0x00000000#32 hred hφ hacc (ix1 p)).trans ?_
  exact Finset.sum_congr rfl fun k _ => by
    rw [lift_row hred p k]
    exact (mulf_apply a a _).trans (by rw [ha k])

end Cert.RowLayers

end
-- ==== Proof.LibQuantRows.lean ====
/-
  Two layers of a quantized perceptron applied to a block of `R` rows at once, read at one row `p` on the extended reals —
  general in the extents R, K, N and in the constants' f32 words.

  * `roundClip_apply` — a block rounded to the nearest integer (ties to even), clipped between two constants and cast to
    a narrower float format, at an index: `min hi (max lo (round (a i)))` (the cast is the identity on the extended reals).
  * `quantProduct_apply` — such a block times a `[K, N]` weight block into a zero accumulator, at `(p, j)`, given what the
    block holds in row `p`: `∑ k, min hi (max lo (round (row k))) · w (k, j)`.
  * `rowNormRelu_apply` — a batch norm whose four parameter vectors are kept as `[1, N]` rows repeated down the block,
    `(z − m) · rsqrt (v + ε) · g + b`, followed by the maximum with a constant, at `(p, j)`.

  Only the definitions of the operations on the extended reals are used: nothing needs an entry to be finite.
-/
import Idealize.ShloMosaic.PureOps.Ideal.Laws
import Idealize.ShloMosaic.Lib.ValueIdx
import Idealize.ShloMosaic.Lib.ValueLayout
import Idealize.ShloMosaic.Lib.Pipeline.Value
import proofs.«109735_j6528350290491_1_alg».proof.Proof.LibRowLayers

noncomputable section

namespace Cert.QuantRows

open Idealize.ShloMosaic Idealize.ShloMosaic.ValueIdx Cert.Dense Cert.RowLayers

variable {R K N : Nat}

/-- Round to the nearest integer, clip between the words `lo` and `hi`, cast to a narrower format: at an index. -/
theorem roundClip_apply {s : Shape} {ψ : FTy} (a : FVec Ideal s .f32) (lo hi : BitVec 32) (h : ψ.bits < FTy.f32.bits) (i : s.Idx) :
    (truncf ψ (minimumf (broadcast s (Scalar.ofBits (F := Ideal) .f32 hi))
        (maximumf (broadcast s (Scalar.ofBits (F := Ideal) .f32 lo)) (roundeven a))) h : FVec Ideal s ψ) i
      = min (Ideal.ofBits .f32 hi) (max (Ideal.ofBits .f32 lo) (Ideal.liftRound Ideal.roundHalfEven (a i))) := rfl

/-- The product of a rounded and clipped block with a weight block, into the zero accumulator, at `(p, j)`, given the
    block's row `p`. -/
theorem quantProduct_apply (d : DotDims ⟨2, ![R, K]⟩ ⟨2, ![K, N]⟩ ⟨2, ![R, N]⟩) (hd : RowsCols d)
    (prec : Option ContractPrecision) {ψ φ₂ : FTy} (a : FVec Ideal ⟨2, ![R, K]⟩ .f32) (lo hi : BitVec 32)
    (h : ψ.bits < FTy.f32.bits) (w : FVec Ideal ⟨2, ![K, N]⟩ φ₂)
    (hc : (⟨2, ![K, N]⟩ : Shape).ShapeCasts ⟨2, ![K, N]⟩) (p : Fin R) (j : Fin N)
    (row : Fin K → EReal) (ha : ∀ k, a (ix2 p k) = row k) :
    matmul d prec (truncf ψ (minimumf (broadcast ⟨2, ![R, K]⟩ (Scalar.ofBits (F := Ideal) .f32 hi))
        (maximumf (broadcast ⟨2, ![R, K]⟩ (Scalar.ofBits (F := Ideal) .f32 lo)) (roundeven a))) h)
      (shapeCast ⟨2, ![K, N]⟩ w hc) (constant (F := Ideal) ⟨2, ![R, N]⟩ .f32 0x00000000#32) (ix2 p j)
      = ∑ k : Fin K, min (Ideal.ofBits .f32 hi) (max (Ideal.ofBits .f32 lo) (Ideal.liftRound Ideal.roundHalfEven (row k)))
          * w (ix2 k j) :=
  product_apply d hd prec _ w hc p j _ fun k => by rw [roundClip_apply, ha k]

/-- Batch norm with its parameters kept as `[1, N]` rows, then the maximum with the word `zr`, at `(p, j)`. -/
theorem rowNormRelu_apply (z : FVec Ideal ⟨2, ![R, N]⟩ .f32) (g b m v : FVec Ideal ⟨2, ![1, N]⟩ .f32) (e zr : BitVec 32)
    (hb : (⟨2, ![1, N]⟩ : Shape).Broadcasts ⟨2, ![R, N]⟩) (p : Fin R) (j : Fin N) :
    maximumf (addf (mulf (mulf (subf z (broadcastTo ⟨2, ![R, N]⟩ m hb))
          (broadcastTo ⟨2, ![R, N]⟩ (rsqrt (addf v (broadcast ⟨2, ![1, N]⟩ (Scalar.ofBits (F := Ideal) .f32 e)))) hb))
          (broadcastTo ⟨2, ![R, N]⟩ g hb)) (broadcastTo ⟨2, ![R, N]⟩ b hb))
        (broadcast ⟨2, ![R, N]⟩ (Scalar.ofBits (F := Ideal) .f32 zr)) (ix2 p j)
      = max ((z (ix2 p j) - m (ix2 (0 : Fin 1) j)) * Ideal.rsqrt (v (ix2 (0 : Fin 1) j) + Ideal.ofBits .f32 e)
          * g (ix2 (0 : Fin 1) j) + b (ix2 (0 : Fin 1) j)) (Ideal.ofBits .f32 zr) := by
  show max ((z (ix2 p j) - broadcastTo ⟨2, ![R, N]⟩ m hb (ix2 p j))
      * broadcastTo ⟨2, ![R, N]⟩ (rsqrt (addf v (broadcast ⟨2, ![1, N]⟩ (Scalar.ofBits (F := Ideal) .f32 e)))) hb (ix2 p j)
      * broadcastTo ⟨2, ![R, N]⟩ g hb (ix2 p j) + broadcastTo ⟨2, ![R, N]⟩ b hb (ix2 p j)) (Ideal.ofBits .f32 zr) = _
  rw [broadcastTo_1b_ab_apply m hb p j, broadcastTo_1b_ab_apply g hb p j, broadcastTo_1b_ab_apply b hb p j,
    broadcastTo_1b_ab_apply _ hb p j]
  rfl

end Cert.QuantRows

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.QuantNet.lean ====
/-
  A small quantized perceptron read one input row at a time, on the extended reals.

  A row `x` of 16 features goes through

      a0  = relu (bn0 x)                              16 entries
      a1  = relu (bn1 (Q a0 · (Q W1)ᵀ))               64
      a2  = relu (Q a1 · (Q W2)ᵀ)                     32
      a3  = relu (Q a2 · (Q W3)ᵀ)                     32
      a4  = relu (Q a3 · (Q W4)ᵀ)                     32
      out = relu (bn5 (Q a4 · (Q W5)ᵀ))               5

  where `bn z = (z − m) · rsqrt (v + ε) · g + b` entry by entry, each weight array keeps one row per output, and the
  quantizer `Q` rounds to the nearest integer (ties to even) and clips into [−128, 127].

  The quantizer can be spelt two ways: `quantK z = clip (round z)` and `quantR z = clip (z + (round z − z))`. For a real
  number `z` the inner sum telescopes, `z + (round z − z) = round z`, and the two agree. At an infinity they do not: on the
  extended reals `+∞ + (+∞ − +∞) = −∞`, so `quantR (+∞) = −128` while `quantK (+∞) = 127`. Hence the two networks agree as
  soon as every value that reaches a quantizer is a real number:

    * every weight is a real number;
    * `a0` and `a1` are real numbers: the batch-norm parameters are real and each variance is `≥ 0`, so that
      `v + ε > 0` and `rsqrt (v + ε)` is a positive real (at `v + ε = 0` it is `+∞`, below that it has no value);
    * `a2`, `a3`, `a4` are real numbers with no hypothesis at all: a clipped value lies in [−128, 127], so every product
      of quantized values, and every finite sum of such products, is a real number.

  The last batch norm feeds no quantizer: it is the same function of the same sum on both sides, and nothing is asked of
  its parameters.
-/
import Idealize.ShloMosaic.PureOps.Ideal
import proofs.«109735_j6528350290491_1_alg».proof.Proof.LibRealValued

noncomputable section

namespace Cert.QuantNet

open Idealize.ShloMosaic Cert.RealValued

/-! ## The constants, as the f32 words both programs print (never evaluated, except for the sign of ε) -/

/-- The batch norm's ε, the f32 nearest 1e-5. -/
def epsW : EReal := Ideal.ofBits .f32 0x3727C5AC#32
/-- Zero. -/
def zeroW : EReal := Ideal.ofBits .f32 0x00000000#32
/-- The lower clipping bound, −128. -/
def loW : EReal := Ideal.ofBits .f32 0xC3000000#32
/-- The upper clipping bound, 127. -/
def hiW : EReal := Ideal.ofBits .f32 0x42FE0000#32

/-! ## The entrywise operations -/

/-- Rounding to the nearest integer, ties to even; the infinities are fixed. -/
def roundE (z : EReal) : EReal := Ideal.liftRound Ideal.roundHalfEven z

/-- Round, then clip. -/
def quantK (z : EReal) : EReal := min hiW (max loW (roundE z))

/-- The same with the rounding spelt as a correction added to the value: `z + (round z − z)`, then clip. -/
def quantR (z : EReal) : EReal := min hiW (max loW (z + (roundE z - z)))

/-- The rectifier. -/
def relu (z : EReal) : EReal := max z zeroW

/-- Batch norm in inference mode at one entry. -/
def bn (z g b m v : EReal) : EReal := (z - m) * Ideal.rsqrt (v + epsW) * g + b

/-- The four parameter vectors of a batch norm over `n` features. -/
structure BnParams (n : Nat) where
  g : Fin n → EReal
  b : Fin n → EReal
  m : Fin n → EReal
  v : Fin n → EReal

/-- Batch norm followed by the rectifier, entry `j`. -/
def bnRelu {n : Nat} (p : BnParams n) (z : Fin n → EReal) (j : Fin n) : EReal :=
  relu (bn (z j) (p.g j) (p.b j) (p.m j) (p.v j))

/-- A linear layer on quantized activations and quantized weights, one weight row per output. -/
def lin (Q : EReal → EReal) {K N : Nat} (w : Fin N → Fin K → EReal) (a : Fin K → EReal) (j : Fin N) : EReal :=
  ∑ k : Fin K, Q (a k) * Q (w j k)

/-! ## The network -/

/-- All the parameters. -/
structure Params where
  w1 : Fin 64 → Fin 16 → EReal
  w2 : Fin 32 → Fin 64 → EReal
  w3 : Fin 32 → Fin 32 → EReal
  w4 : Fin 32 → Fin 32 → EReal
  w5 : Fin 5 → Fin 32 → EReal
  bn0 : BnParams 16
  bn1 : BnParams 64
  bn5 : BnParams 5

variable (Q : EReal → EReal) (P : Params) (x : Fin 16 → EReal)

def act0 : Fin 16 → EReal := bnRelu P.bn0 x
def act1 : Fin 64 → EReal := bnRelu P.bn1 (lin Q P.w1 (act0 P x))
def act2 : Fin 32 → EReal := fun j => relu (lin Q P.w2 (act1 Q P x) j)
def act3 : Fin 32 → EReal := fun j => relu (lin Q P.w3 (act2 Q P x) j)
def act4 : Fin 32 → EReal := fun j => relu (lin Q P.w4 (act3 Q P x) j)
/-- The network's output row. -/
def net : Fin 5 → EReal := bnRelu P.bn5 (lin Q P.w5 (act4 Q P x))

/-! ## Real numbers among the extended reals -/

/-- An extended real that is neither infinity is a real number. -/
theorem isReal_of_ne {a : EReal} (h₁ : a ≠ ⊤) (h₂ : a ≠ ⊥) : IsReal a := ⟨a.toReal, (EReal.coe_toReal h₁ h₂).symm⟩

end Cert.QuantNet

namespace Cert.RealValued

/-- A real number is neither infinity. -/
theorem IsReal.ne_top {a : EReal} (h : IsReal a) : a ≠ ⊤ := by obtain ⟨r, rfl⟩ := h; exact EReal.coe_ne_top r
theorem IsReal.ne_bot {a : EReal} (h : IsReal a) : a ≠ ⊥ := by obtain ⟨r, rfl⟩ := h; exact EReal.coe_ne_bot r

/-- The larger of two real numbers is a real number. -/
theorem IsReal.max {a b : EReal} (ha : IsReal a) (hb : IsReal b) : IsReal (max a b) := by
  rcases max_choice a b with h | h <;> rw [h] <;> assumption

/-- The smaller of two real numbers is a real number. -/
theorem IsReal.min {a b : EReal} (ha : IsReal a) (hb : IsReal b) : IsReal (min a b) := by
  rcases min_choice a b with h | h <;> rw [h] <;> assumption

/-- The difference of two real numbers is a real number. -/
theorem IsReal.sub {a b : EReal} (ha : IsReal a) (hb : IsReal b) : IsReal (a - b) := by
  obtain ⟨r, rfl⟩ := ha
  obtain ⟨s, rfl⟩ := hb
  exact ⟨r - s, (EReal.coe_sub r s).symm⟩

end Cert.RealValued

namespace Cert.QuantNet

open Idealize.ShloMosaic Cert.RealValued

theorem isReal_zeroW : IsReal zeroW := ieee_isReal 8 23 (0x00000000#32 : BitVec 32) (by decide)
theorem isReal_loW : IsReal loW := ieee_isReal 8 23 (0xC3000000#32 : BitVec 32) (by decide)
theorem isReal_hiW : IsReal hiW := ieee_isReal 8 23 (0x42FE0000#32 : BitVec 32) (by decide)

/-- A float pattern with a clear sign bit and an exponent field that is neither all ones nor zero denotes a positive real
    number: `(2^m + fraction) · 2^(exponent − bias − m)`. -/
theorem ieee_pos (e m : Nat) {w : Nat} (b : BitVec w) (hs : (b.extractLsb' (e + m) 1 == 1#1) = false)
    (h₁ : (b.extractLsb' m e).toNat ≠ 2 ^ e - 1) (h₀ : (b.extractLsb' m e).toNat ≠ 0) :
    ∃ r : ℝ, 0 < r ∧ Ideal.ieee e m b = (r : EReal) := by
  unfold Ideal.ieee
  dsimp only
  rw [if_neg h₁, if_neg h₀, hs]
  refine ⟨_, ?_, rfl⟩
  simp only [Bool.false_eq_true, if_false, one_mul]
  positivity

/-- ε is a positive real number. -/
theorem epsW_pos : ∃ r : ℝ, 0 < r ∧ epsW = (r : EReal) :=
  ieee_pos 8 23 (0x3727C5AC#32 : BitVec 32) (by decide) (by decide) (by decide)

/-- A clipped value is a real number, whatever was clipped: it lies between the two bounds. -/
theorem isReal_clip (y : EReal) : IsReal (min hiW (max loW y)) := by
  refine isReal_of_ne (fun h => ?_) (fun h => ?_)
  · exact isReal_hiW.ne_top (top_le_iff.1 (h ▸ min_le_left hiW (max loW y)))
  · have hle : min hiW loW ≤ min hiW (max loW y) := min_le_min_left hiW (le_max_left loW y)
    exact (isReal_hiW.min isReal_loW).ne_bot (le_bot_iff.1 (h ▸ hle))

/-- Both quantizers produce real numbers, of any argument. -/
theorem isReal_quantK (z : EReal) : IsReal (quantK z) := isReal_clip _
theorem isReal_quantR (z : EReal) : IsReal (quantR z) := isReal_clip _

/-- The rounding correction telescopes on a real number: `z + (round z − z) = round z`. -/
theorem add_round_sub_self {z : EReal} (h : IsReal z) : z + (roundE z - z) = roundE z := by
  obtain ⟨r, rfl⟩ := h
  unfold roundE
  rw [Ideal.liftRound_coe, ← EReal.coe_sub, ← EReal.coe_add, add_sub_cancel]

/-- So the two quantizers agree on a real number. -/
theorem quantR_eq {z : EReal} (h : IsReal z) : quantR z = quantK z := by
  unfold quantR quantK
  rw [add_round_sub_self h]

/-- The rectifier of a real number is a real number. -/
theorem isReal_relu {z : EReal} (h : IsReal z) : IsReal (relu z) := h.max isReal_zeroW

/-- The reciprocal square root of a positive real number is a real number. -/
theorem isReal_rsqrt_pos {r : ℝ} (h : 0 < r) : IsReal (Ideal.rsqrt (r : EReal)) := by
  rw [Ideal.rsqrt_coe, if_neg (not_lt.2 h.le), if_neg h.ne']
  exact ⟨_, rfl⟩

/-- The parameters of a batch norm are real numbers and its variances are nonnegative. -/
structure BnParams.Ok {n : Nat} (p : BnParams n) : Prop where
  g : ∀ j, IsReal (p.g j)
  b : ∀ j, IsReal (p.b j)
  m : ∀ j, IsReal (p.m j)
  v : ∀ j, ∃ r : ℝ, 0 ≤ r ∧ p.v j = (r : EReal)

/-- Batch norm and rectifier of real numbers, under such parameters, are real numbers. -/
theorem isReal_bnRelu {n : Nat} {p : BnParams n} (hp : p.Ok) {z : Fin n → EReal} (hz : ∀ j, IsReal (z j)) (j : Fin n) :
    IsReal (bnRelu p z j) := by
  obtain ⟨r, hr, hv⟩ := hp.v j
  obtain ⟨e, he, hε⟩ := epsW_pos
  refine isReal_relu ((((hz j).sub (hp.m j)).mul ?_).mul (hp.g j) |>.add (hp.b j))
  rw [hv, hε, ← EReal.coe_add]
  exact isReal_rsqrt_pos (by linarith)

/-- A linear layer on quantized values is a real number whatever its inputs are. -/
theorem isReal_lin {Q : EReal → EReal} (hQ : ∀ z, IsReal (Q z)) {K N : Nat} (w : Fin N → Fin K → EReal)
    (a : Fin K → EReal) (j : Fin N) : IsReal (lin Q w a j) :=
  isReal_sum _ _ fun k _ => (hQ (a k)).mul (hQ (w j k))

/-- On real activations and real weights the two spellings of the quantizer give the same linear layer. -/
theorem lin_quantR_eq {K N : Nat} {w : Fin N → Fin K → EReal} {a : Fin K → EReal} (hw : ∀ j k, IsReal (w j k))
    (ha : ∀ k, IsReal (a k)) : lin quantR w a = lin quantK w a :=
  funext fun j => Finset.sum_congr rfl fun k _ => by rw [quantR_eq (ha k), quantR_eq (hw j k)]

/-! ## The two networks agree -/

/-- What is asked of the parameters: real weights, and the first two batch norms' parameters real with nonnegative
    variances. Nothing is asked of the last batch norm. -/
structure Params.Ok (P : Params) : Prop where
  w1 : ∀ j k, IsReal (P.w1 j k)
  w2 : ∀ j k, IsReal (P.w2 j k)
  w3 : ∀ j k, IsReal (P.w3 j k)
  w4 : ∀ j k, IsReal (P.w4 j k)
  w5 : ∀ j k, IsReal (P.w5 j k)
  bn0 : P.bn0.Ok
  bn1 : P.bn1.Ok

variable {P x}

theorem isReal_act0 (hP : P.Ok) (hx : ∀ k, IsReal (x k)) (k : Fin 16) : IsReal (act0 P x k) := isReal_bnRelu hP.bn0 hx k

theorem isReal_act1 (hP : P.Ok) (k : Fin 64) : IsReal (act1 quantK P x k) :=
  isReal_bnRelu hP.bn1 (isReal_lin isReal_quantK _ _) k

theorem isReal_act2 (k : Fin 32) : IsReal (act2 quantK P x k) := isReal_relu (isReal_lin isReal_quantK _ _ _)
theorem isReal_act3 (k : Fin 32) : IsReal (act3 quantK P x k) := isReal_relu (isReal_lin isReal_quantK _ _ _)
theorem isReal_act4 (k : Fin 32) : IsReal (act4 quantK P x k) := isReal_relu (isReal_lin isReal_quantK _ _ _)

theorem act1_eq (hP : P.Ok) (hx : ∀ k, IsReal (x k)) : act1 quantR P x = act1 quantK P x := by
  unfold act1; rw [lin_quantR_eq hP.w1 (isReal_act0 hP hx)]

theorem act2_eq (hP : P.Ok) (hx : ∀ k, IsReal (x k)) : act2 quantR P x = act2 quantK P x := by
  unfold act2; rw [act1_eq hP hx, lin_quantR_eq hP.w2 (isReal_act1 hP)]

theorem act3_eq (hP : P.Ok) (hx : ∀ k, IsReal (x k)) : act3 quantR P x = act3 quantK P x := by
  unfold act3; rw [act2_eq hP hx, lin_quantR_eq hP.w3 isReal_act2]

theorem act4_eq (hP : P.Ok) (hx : ∀ k, IsReal (x k)) : act4 quantR P x = act4 quantK P x := by
  unfold act4; rw [act3_eq hP hx, lin_quantR_eq hP.w4 isReal_act3]

/-- The network with the quantizer spelt as a correction is the network with the plain quantizer, on a real input row and
    under real parameters with nonnegative variances in the first two batch norms. -/
theorem net_quantR_eq (hP : P.Ok) (hx : ∀ k, IsReal (x k)) : net quantR P x = net quantK P x := by
  unfold net; rw [act4_eq hP hx, lin_quantR_eq hP.w5 isReal_act4]

end Cert.QuantNet

end
-- ==== Proof.KernelRow.lean ====
/-
  The kernel's body, read at one row of its block.

  The body takes a block of 8192 input rows and the parameter blocks, and computes the whole network for all the rows at
  once: batch norm, rectifier, round-and-clip, a product with the (already quantized and transposed) weight block, five
  times over. Row `p` of each intermediate block depends on row `p` of the block before it only, so the body is read one row
  at a time: if row `p` of the input block is `xr`, the output block holds at `(p, j)` the network's output `j` for the
  input row `xr` (`QuantNet.net` with the plain quantizer `quantK`).

  The parameter blocks are tied to the network's parameters by hypotheses: the weight block of a layer holds, at `(k, j)`,
  the quantized weight of input `k` to output `j`; each batch-norm parameter is a `[1, n]` row.

  The body's arithmetic is printed as three nested terms (first product; up to the lower clip after the third product; the
  rest). The last clip's upper bound is applied in the third term to a value computed in the second, so the second term is
  read up to `max lo (round (a3))` and the third starts from `min hi` of it.
-/
import proofs.«109735_j6528350290491_1_alg».proof.Proof.Gen.KernelIdeal.Skeleton
import proofs.«109735_j6528350290491_1_alg».proof.Proof.LibQuantRows
import proofs.«109735_j6528350290491_1_alg».proof.Proof.QuantNet

noncomputable section

namespace Cert.KernelIdeal.Row

open Cert.KernelIdeal Cert.KernelIdeal.Gen Idealize.ShloMosaic Idealize.ShloMosaic.ValueIdx
open Cert.Dense Cert.RowLayers Cert.QuantRows Cert.QuantNet

/-! ## The four contractions: rows times columns -/

theorem rc_16_64 : RowsCols dot_S8192x16_S16x64_S8192x64_1_0_0_1_n_n :=
  ⟨rfl, rfl, fun _ _ => rfl, fun _ _ => rfl, fun _ _ => rfl, fun _ _ => rfl⟩
theorem rc_64_32 : RowsCols dot_S8192x64_S64x32_S8192x32_1_0_0_1_n_n :=
  ⟨rfl, rfl, fun _ _ => rfl, fun _ _ => rfl, fun _ _ => rfl, fun _ _ => rfl⟩
theorem rc_32_32 : RowsCols dot_S8192x32_S32x32_S8192x32_1_0_0_1_n_n :=
  ⟨rfl, rfl, fun _ _ => rfl, fun _ _ => rfl, fun _ _ => rfl, fun _ _ => rfl⟩
theorem rc_32_5 : RowsCols dot_S8192x32_S32x5_S8192x5_1_0_0_1_n_n :=
  ⟨rfl, rfl, fun _ _ => rfl, fun _ _ => rfl, fun _ _ => rfl, fun _ _ => rfl⟩

variable (P : Params) (xr : Fin 16 → EReal) (p : Fin 8192)

/-! ## First term: the input's batch norm, rectifier, quantizer and the first product -/

/-- Row `p` of the first product is the first linear layer of the row's `act0`. -/
theorem pay1_row (x0 : FVec Ideal S8192x16 .f32) (x6 x7 x8 x9 : FVec Ideal S1x16 .f32) (x1 : FVec Ideal S16x64 .bf16)
    (j : Fin 64) (hx : ∀ k, x0 (ix2 p k) = xr k)
    (hw1 : ∀ (j : Fin 64) (k : Fin 16), x1 (ix2 k j) = quantK (P.w1 j k))
    (hg : ∀ k, x6 (ix2 (0 : Fin 1) k) = P.bn0.g k) (hb : ∀ k, x7 (ix2 (0 : Fin 1) k) = P.bn0.b k)
    (hm : ∀ k, x8 (ix2 (0 : Fin 1) k) = P.bn0.m k) (hv : ∀ k, x9 (ix2 (0 : Fin 1) k) = P.bn0.v k) :
    k0_pay1 (F := Ideal) x0 x6 x7 x8 x9 x1 (ix2 p j) = lin quantK P.w1 (act0 P xr) j := by
  unfold k0_pay1
  refine (quantProduct_apply _ rc_16_64 none _ _ _ _ x1 _ p j _
    fun k => rowNormRelu_apply x0 _ _ _ _ _ _ _ p k).trans ?_
  simp only [shapeCast_self, hx, hw1, hg, hb, hm, hv]
  rfl

/-! ## Second term: the second batch norm and two more layers, up to the lower clip of the third quantizer -/

/-- Row `p` of the second term, given row `p` of the first product. -/
theorem pay4_row (v30 : FVec Ideal S8192x64 .f32) (v32 v34 v35 v37 : FVec Ideal S1x64 .f32)
    (v58 : FVec Ideal S64x32 .bf16) (v69 : FVec Ideal S32x32 .bf16) (j : Fin 32)
    (hz : ∀ k, v30 (ix2 p k) = lin quantK P.w1 (act0 P xr) k)
    (hw2 : ∀ (j : Fin 32) (k : Fin 64), v58 (ix2 k j) = quantK (P.w2 j k))
    (hw3 : ∀ (j : Fin 32) (k : Fin 32), v69 (ix2 k j) = quantK (P.w3 j k))
    (hg : ∀ k, v32 (ix2 (0 : Fin 1) k) = P.bn1.g k) (hb : ∀ k, v34 (ix2 (0 : Fin 1) k) = P.bn1.b k)
    (hm : ∀ k, v35 (ix2 (0 : Fin 1) k) = P.bn1.m k) (hv : ∀ k, v37 (ix2 (0 : Fin 1) k) = P.bn1.v k) :
    k0_pay4 (F := Ideal) v30 v32 v34 v35 v37 v58 v69 (ix2 p j) = max loW (roundE (act3 quantK P xr j)) := by
  unfold k0_pay4
  refine (congrArg (fun t => max (Ideal.ofBits .f32 0xC3000000#32)
    (Ideal.liftRound Ideal.roundHalfEven (max t (Ideal.ofBits .f32 0x00000000#32))))
    (quantProduct_apply _ rc_32_32 none _ _ _ _ v69 _ p j _ fun k2 =>
      congrArg (fun t => max t (Ideal.ofBits .f32 0x00000000#32))
        (quantProduct_apply _ rc_64_32 none _ _ _ _ v58 _ p k2 _ fun k =>
          rowNormRelu_apply v30 _ _ _ _ _ _ _ p k))).trans ?_
  simp only [shapeCast_self, hz, hw2, hw3, hg, hb, hm, hv]
  rfl

/-! ## Third term: the upper clip, two more layers and the last batch norm -/

/-- Row `p` of the output block, given row `p` of the third quantizer's two halves. -/
theorem pay6_row (v76 v77 : FVec Ideal S8192x32 .f32) (v80 : FVec Ideal S32x32 .bf16) (v91 : FVec Ideal S32x5 .bf16)
    (v94 v96 v98 v100 : FVec Ideal S1x5 .f32) (j : Fin 5)
    (hq : ∀ k, min (v77 (ix2 p k)) (v76 (ix2 p k)) = quantK (act3 quantK P xr k))
    (hw4 : ∀ (j : Fin 32) (k : Fin 32), v80 (ix2 k j) = quantK (P.w4 j k))
    (hw5 : ∀ (j : Fin 5) (k : Fin 32), v91 (ix2 k j) = quantK (P.w5 j k))
    (hg : ∀ k, v94 (ix2 (0 : Fin 1) k) = P.bn5.g k) (hb : ∀ k, v96 (ix2 (0 : Fin 1) k) = P.bn5.b k)
    (hm : ∀ k, v98 (ix2 (0 : Fin 1) k) = P.bn5.m k) (hv : ∀ k, v100 (ix2 (0 : Fin 1) k) = P.bn5.v k) :
    k0_pay6 (F := Ideal) v76 v77 v80 v91 v94 v96 v98 v100 (ix2 p j) = net quantK P xr j := by
  unfold k0_pay6
  refine (rowNormRelu_apply _ _ _ _ _ _ _ _ p j).trans ?_
  refine (congrArg (fun t => max ((t - _) * _ * _ + _) _)
    (quantProduct_apply _ rc_32_5 none _ _ _ _ v91 _ p j _ fun k4 =>
      congrArg (fun t => max t (Ideal.ofBits .f32 0x00000000#32))
        (product_apply _ rc_32_32 none (truncf .bf16 (minimumf v77 v76) bitsLt_bf16_f32) v80 _ p k4 _ hq))).trans ?_
  simp only [shapeCast_self, hw4, hw5, hg, hb, hm, hv]
  rfl

/-! ## The body -/

/-- The body's result at `(p, j)` is the network's output `j` for the input row `p`. -/
theorem body_row (x0 : FVec Ideal S8192x16 .f32) (x1 : FVec Ideal S16x64 .bf16) (x2 : FVec Ideal S64x32 .bf16)
    (x3 x4 : FVec Ideal S32x32 .bf16) (x5 : FVec Ideal S32x5 .bf16) (x6 x7 x8 x9 : FVec Ideal S1x16 .f32)
    (x10 x11 x12 x13 : FVec Ideal S1x64 .f32) (x14 x15 x16 x17 : FVec Ideal S1x5 .f32) (j : Fin 5)
    (hx : ∀ k, x0 (ix2 p k) = xr k)
    (hw1 : ∀ (j : Fin 64) (k : Fin 16), x1 (ix2 k j) = quantK (P.w1 j k))
    (hw2 : ∀ (j : Fin 32) (k : Fin 64), x2 (ix2 k j) = quantK (P.w2 j k))
    (hw3 : ∀ (j : Fin 32) (k : Fin 32), x3 (ix2 k j) = quantK (P.w3 j k))
    (hw4 : ∀ (j : Fin 32) (k : Fin 32), x4 (ix2 k j) = quantK (P.w4 j k))
    (hw5 : ∀ (j : Fin 5) (k : Fin 32), x5 (ix2 k j) = quantK (P.w5 j k))
    (hg0 : ∀ k, x6 (ix2 (0 : Fin 1) k) = P.bn0.g k) (hb0 : ∀ k, x7 (ix2 (0 : Fin 1) k) = P.bn0.b k)
    (hm0 : ∀ k, x8 (ix2 (0 : Fin 1) k) = P.bn0.m k) (hv0 : ∀ k, x9 (ix2 (0 : Fin 1) k) = P.bn0.v k)
    (hg1 : ∀ k, x10 (ix2 (0 : Fin 1) k) = P.bn1.g k) (hb1 : ∀ k, x11 (ix2 (0 : Fin 1) k) = P.bn1.b k)
    (hm1 : ∀ k, x12 (ix2 (0 : Fin 1) k) = P.bn1.m k) (hv1 : ∀ k, x13 (ix2 (0 : Fin 1) k) = P.bn1.v k)
    (hg5 : ∀ k, x14 (ix2 (0 : Fin 1) k) = P.bn5.g k) (hb5 : ∀ k, x15 (ix2 (0 : Fin 1) k) = P.bn5.b k)
    (hm5 : ∀ k, x16 (ix2 (0 : Fin 1) k) = P.bn5.m k) (hv5 : ∀ k, x17 (ix2 (0 : Fin 1) k) = P.bn5.v k) :
    k0_pay6 (F := Ideal) (k0_pay4 (k0_pay1 x0 x6 x7 x8 x9 x1) (k0_pay2 x10) (k0_pay3 x11) x12 x13 x2 x3) k0_pay5
      x4 x5 x14 x15 x16 x17 (ix2 p j) = net quantK P xr j := by
  refine pay6_row P xr p _ _ x4 x5 x14 x15 x16 x17 j (fun k => ?_) hw4 hw5 hg5 hb5 hm5 hv5
  have h := pay4_row P xr p (k0_pay1 x0 x6 x7 x8 x9 x1) (k0_pay2 x10) (k0_pay3 x11) x12 x13 x2 x3 k
    (fun k1 => pay1_row P xr p x0 x6 x7 x8 x9 x1 k1 hx hw1 hg0 hb0 hm0 hv0) hw2 hw3
    (fun k1 => by unfold k0_pay2; rw [shapeCast_self]; exact hg1 k1)
    (fun k1 => by unfold k0_pay3; rw [shapeCast_self]; exact hb1 k1) hm1 hv1
  rw [h]
  rfl

end Cert.KernelIdeal.Row

end
-- ==== Proof.KernelWeights.lean ====
/-
  The weight blocks the kernel is launched on.

  Before the launch the host rounds each weight array to the nearest integers (ties to even), clips it into [−128, 127],
  transposes it (so that the kernel multiplies activations by a `[inputs, outputs]` block) and casts it to bf16, which is the
  identity on the extended reals (so the cast does not appear below). So the block of a layer holds, at `(k, j)`, the quantized weight of input `k` to output `j`:
  `quantK (w (j, k))`.
-/
import proofs.«109735_j6528350290491_1_alg».proof.Proof.Gen.KernelIdeal.Frame
import proofs.«109735_j6528350290491_1_alg».proof.Proof.QuantNet
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.ShloMosaic.ValueIdx Idealize.SL.Sem
open Idealize.ShloMosaic.StableHlo Cert.QuantNet

variable (m : (ℓ : Loc nD τ sig) → Buf (Elt Ideal) ℓ)

set_option maxHeartbeats 1000000 in
/-- The weight block of layer 1 as the region finds it: at `(k, j)` the quantized weight of input `k` to output `j`. -/
theorem wT1_apply (c : Dev nD) (k : Fin 16) (j : Fin 64) :
    (V m c main_v3 : S16x64.Idx → EReal) (ix2 k j)
      = quantK ((m ((c : Thread nD τ).loc main_arg1) : S64x16.Idx → EReal) (ix2 j k)) := by
  have e : (V m c main_v3 : S16x64.Idx → EReal) = transpose S16x64 [1, 0]
      (minimumf (broadcastInDim S64x16 ![] bcast_S_S64x16 (constant (F := Ideal) S_ .f32 0x42FE0000#32))
        (maximumf (broadcastInDim S64x16 ![] bcast_S_S64x16 (constant (F := Ideal) S_ .f32 0xC3000000#32))
          (Host.roundeven (m ((c : Thread nD τ).loc main_arg1) : S64x16.Idx → EReal)))) transposes_S64x16_S16x64_1_0 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  refine (transpose_apply [1, 0] _ transposes_S64x16_S16x64_1_0 (ix2 k j) (ix2 j k)
    (fun b => match b with | ⟨0, _⟩ => rfl | ⟨1, _⟩ => rfl)).trans ?_
  refine (minimumf_apply _ _ _).trans ?_
  rw [broadcastInDim_apply _ bcast_S_S64x16 _ (ix2 j k) ix0 (fun a => a.elim0)]
  refine congrArg (min _) ((maximumf_apply _ _ _).trans ?_)
  rw [broadcastInDim_apply _ bcast_S_S64x16 _ (ix2 j k) ix0 (fun a => a.elim0)]
  rfl

set_option maxHeartbeats 1000000 in
/-- The weight block of layer 2 as the region finds it: at `(k, j)` the quantized weight of input `k` to output `j`. -/
theorem wT2_apply (c : Dev nD) (k : Fin 64) (j : Fin 32) :
    (V m c main_v7 : S64x32.Idx → EReal) (ix2 k j)
      = quantK ((m ((c : Thread nD τ).loc main_arg2) : S32x64.Idx → EReal) (ix2 j k)) := by
  have e : (V m c main_v7 : S64x32.Idx → EReal) = transpose S64x32 [1, 0]
      (minimumf (broadcastInDim S32x64 ![] bcast_S_S32x64 (constant (F := Ideal) S_ .f32 0x42FE0000#32))
        (maximumf (broadcastInDim S32x64 ![] bcast_S_S32x64 (constant (F := Ideal) S_ .f32 0xC3000000#32))
          (Host.roundeven (m ((c : Thread nD τ).loc main_arg2) : S32x64.Idx → EReal)))) transposes_S32x64_S64x32_1_0 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  refine (transpose_apply [1, 0] _ transposes_S32x64_S64x32_1_0 (ix2 k j) (ix2 j k)
    (fun b => match b with | ⟨0, _⟩ => rfl | ⟨1, _⟩ => rfl)).trans ?_
  refine (minimumf_apply _ _ _).trans ?_
  rw [broadcastInDim_apply _ bcast_S_S32x64 _ (ix2 j k) ix0 (fun a => a.elim0)]
  refine congrArg (min _) ((maximumf_apply _ _ _).trans ?_)
  rw [broadcastInDim_apply _ bcast_S_S32x64 _ (ix2 j k) ix0 (fun a => a.elim0)]
  rfl

set_option maxHeartbeats 1000000 in
/-- The weight block of layer 3 as the region finds it: at `(k, j)` the quantized weight of input `k` to output `j`. -/
theorem wT3_apply (c : Dev nD) (k : Fin 32) (j : Fin 32) :
    (V m c main_v11 : S32x32.Idx → EReal) (ix2 k j)
      = quantK ((m ((c : Thread nD τ).loc main_arg3) : S32x32.Idx → EReal) (ix2 j k)) := by
  have e : (V m c main_v11 : S32x32.Idx → EReal) = transpose S32x32 [1, 0]
      (minimumf (broadcastInDim S32x32 ![] bcast_S_S32x32 (constant (F := Ideal) S_ .f32 0x42FE0000#32))
        (maximumf (broadcastInDim S32x32 ![] bcast_S_S32x32 (constant (F := Ideal) S_ .f32 0xC3000000#32))
          (Host.roundeven (m ((c : Thread nD τ).loc main_arg3) : S32x32.Idx → EReal)))) transposes_S32x32_S32x32_1_0 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  refine (transpose_apply [1, 0] _ transposes_S32x32_S32x32_1_0 (ix2 k j) (ix2 j k)
    (fun b => match b with | ⟨0, _⟩ => rfl | ⟨1, _⟩ => rfl)).trans ?_
  refine (minimumf_apply _ _ _).trans ?_
  rw [broadcastInDim_apply _ bcast_S_S32x32 _ (ix2 j k) ix0 (fun a => a.elim0)]
  refine congrArg (min _) ((maximumf_apply _ _ _).trans ?_)
  rw [broadcastInDim_apply _ bcast_S_S32x32 _ (ix2 j k) ix0 (fun a => a.elim0)]
  rfl

set_option maxHeartbeats 1000000 in
/-- The weight block of layer 4 as the region finds it: at `(k, j)` the quantized weight of input `k` to output `j`. -/
theorem wT4_apply (c : Dev nD) (k : Fin 32) (j : Fin 32) :
    (V m c main_v15 : S32x32.Idx → EReal) (ix2 k j)
      = quantK ((m ((c : Thread nD τ).loc main_arg4) : S32x32.Idx → EReal) (ix2 j k)) := by
  have e : (V m c main_v15 : S32x32.Idx → EReal) = transpose S32x32 [1, 0]
      (minimumf (broadcastInDim S32x32 ![] bcast_S_S32x32 (constant (F := Ideal) S_ .f32 0x42FE0000#32))
        (maximumf (broadcastInDim S32x32 ![] bcast_S_S32x32 (constant (F := Ideal) S_ .f32 0xC3000000#32))
          (Host.roundeven (m ((c : Thread nD τ).loc main_arg4) : S32x32.Idx → EReal)))) transposes_S32x32_S32x32_1_0 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  refine (transpose_apply [1, 0] _ transposes_S32x32_S32x32_1_0 (ix2 k j) (ix2 j k)
    (fun b => match b with | ⟨0, _⟩ => rfl | ⟨1, _⟩ => rfl)).trans ?_
  refine (minimumf_apply _ _ _).trans ?_
  rw [broadcastInDim_apply _ bcast_S_S32x32 _ (ix2 j k) ix0 (fun a => a.elim0)]
  refine congrArg (min _) ((maximumf_apply _ _ _).trans ?_)
  rw [broadcastInDim_apply _ bcast_S_S32x32 _ (ix2 j k) ix0 (fun a => a.elim0)]
  rfl

set_option maxHeartbeats 1000000 in
/-- The weight block of layer 5 as the region finds it: at `(k, j)` the quantized weight of input `k` to output `j`. -/
theorem wT5_apply (c : Dev nD) (k : Fin 32) (j : Fin 5) :
    (V m c main_v19 : S32x5.Idx → EReal) (ix2 k j)
      = quantK ((m ((c : Thread nD τ).loc main_arg5) : S5x32.Idx → EReal) (ix2 j k)) := by
  have e : (V m c main_v19 : S32x5.Idx → EReal) = transpose S32x5 [1, 0]
      (minimumf (broadcastInDim S5x32 ![] bcast_S_S5x32 (constant (F := Ideal) S_ .f32 0x42FE0000#32))
        (maximumf (broadcastInDim S5x32 ![] bcast_S_S5x32 (constant (F := Ideal) S_ .f32 0xC3000000#32))
          (Host.roundeven (m ((c : Thread nD τ).loc main_arg5) : S5x32.Idx → EReal)))) transposes_S5x32_S32x5_1_0 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  refine (transpose_apply [1, 0] _ transposes_S5x32_S32x5_1_0 (ix2 k j) (ix2 j k)
    (fun b => match b with | ⟨0, _⟩ => rfl | ⟨1, _⟩ => rfl)).trans ?_
  refine (minimumf_apply _ _ _).trans ?_
  rw [broadcastInDim_apply _ bcast_S_S5x32 _ (ix2 j k) ix0 (fun a => a.elim0)]
  refine congrArg (min _) ((maximumf_apply _ _ _).trans ?_)
  rw [broadcastInDim_apply _ bcast_S_S5x32 _ (ix2 j k) ix0 (fun a => a.elim0)]
  rfl

end Cert.KernelIdeal.HostSide

end
-- ==== Proof.KernelNormRowsA.lean ====
/-
  The batch-norm parameter rows the kernel is launched on (the first six).

  Before the launch the host reshapes each parameter vector of `n` entries to a `[1, n]` row; the row holds at `(0, k)` the
  vector's entry `k`.
-/
import proofs.«109735_j6528350290491_1_alg».proof.Proof.Gen.KernelIdeal.Frame
import proofs.«109735_j6528350290491_1_alg».proof.Proof.QuantNet
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostSide

open Cert.KernelIdeal Cert.KernelIdeal.Gen Idealize.ShloMosaic Idealize.ShloMosaic.TcCoe Idealize.ShloMosaic.ValueIdx Idealize.SL.Sem
open Idealize.ShloMosaic.StableHlo Cert.QuantNet

variable (m : (ℓ : Loc nD τ sig) → Buf (Elt Ideal) ℓ)

theorem g0_apply (c : Dev nD) (k : Fin 16) :
    (V m c main_v20 : S1x16.Idx → EReal) (ix2 (0 : Fin 1) k) = (m ((c : Thread nD τ).loc main_arg6) : S16.Idx → EReal) (ix1 k) := by
  have e : (V m c main_v20 : S1x16.Idx → EReal)
      = shapeCast S1x16 (m ((c : Thread nD τ).loc main_arg6) : S16.Idx → EReal) shapeCasts_S16_S1x16 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  exact shapeCast_a_1a_apply _ _ 0 k

theorem b0_apply (c : Dev nD) (k : Fin 16) :
    (V m c main_v21 : S1x16.Idx → EReal) (ix2 (0 : Fin 1) k) = (m ((c : Thread nD τ).loc main_arg7) : S16.Idx → EReal) (ix1 k) := by
  have e : (V m c main_v21 : S1x16.Idx → EReal)
      = shapeCast S1x16 (m ((c : Thread nD τ).loc main_arg7) : S16.Idx → EReal) shapeCasts_S16_S1x16 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  exact shapeCast_a_1a_apply _ _ 0 k

theorem m0_apply (c : Dev nD) (k : Fin 16) :
    (V m c main_v22 : S1x16.Idx → EReal) (ix2 (0 : Fin 1) k) = (m ((c : Thread nD τ).loc main_arg8) : S16.Idx → EReal) (ix1 k) := by
  have e : (V m c main_v22 : S1x16.Idx → EReal)
      = shapeCast S1x16 (m ((c : Thread nD τ).loc main_arg8) : S16.Idx → EReal) shapeCasts_S16_S1x16 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  exact shapeCast_a_1a_apply _ _ 0 k

theorem v0_apply (c : Dev nD) (k : Fin 16) :
    (V m c main_v23 : S1x16.Idx → EReal) (ix2 (0 : Fin 1) k) = (m ((c : Thread nD τ).loc main_arg9) : S16.Idx → EReal) (ix1 k) := by
  have e : (V m c main_v23 : S1x16.Idx → EReal)
      = shapeCast S1x16 (m ((c : Thread nD τ).loc main_arg9) : S16.Idx → EReal) shapeCasts_S16_S1x16 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  exact shapeCast_a_1a_apply _ _ 0 k

theorem g1_apply (c : Dev nD) (k : Fin 64) :
    (V m c main_v24 : S1x64.Idx → EReal) (ix2 (0 : Fin 1) k) = (m ((c : Thread nD τ).loc main_arg10) : S64.Idx → EReal) (ix1 k) := by
  have e : (V m c main_v24 : S1x64.Idx → EReal)
      = shapeCast S1x64 (m ((c : Thread nD τ).loc main_arg10) : S64.Idx → EReal) shapeCasts_S64_S1x64 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  exact shapeCast_a_1a_apply _ _ 0 k

theorem b1_apply (c : Dev nD) (k : Fin 64) :
    (V m c main_v25 : S1x64.Idx → EReal) (ix2 (0 : Fin 1) k) = (m ((c : Thread nD τ).loc main_arg11) : S64.Idx → EReal) (ix1 k) := by
  have e : (V m c main_v25 : S1x64.Idx → EReal)
      = shapeCast S1x64 (m ((c : Thread nD τ).loc main_arg11) : S64.Idx → EReal) shapeCasts_S64_S1x64 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  exact shapeCast_a_1a_apply _ _ 0 k

end Cert.KernelIdeal.HostSide

end
-- ==== Proof.KernelNormRowsB.lean ====
/-
  The batch-norm parameter rows the kernel is launched on (the last six).

  Before the launch the host reshapes each parameter vector of `n` entries to a `[1, n]` row; the row holds at `(0, k)` the
  vector's entry `k`.
-/
import proofs.«109735_j6528350290491_1_alg».proof.Proof.Gen.KernelIdeal.Frame
import proofs.«109735_j6528350290491_1_alg».proof.Proof.QuantNet
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostSide

open Cert.KernelIdeal Cert.KernelIdeal.Gen Idealize.ShloMosaic Idealize.ShloMosaic.TcCoe Idealize.ShloMosaic.ValueIdx Idealize.SL.Sem
open Idealize.ShloMosaic.StableHlo Cert.QuantNet

variable (m : (ℓ : Loc nD τ sig) → Buf (Elt Ideal) ℓ)

set_option maxHeartbeats 1000000 in
theorem m1_apply (c : Dev nD) (k : Fin 64) :
    (V m c main_v26 : S1x64.Idx → EReal) (ix2 (0 : Fin 1) k) = (m ((c : Thread nD τ).loc main_arg12) : S64.Idx → EReal) (ix1 k) := by
  have e : (V m c main_v26 : S1x64.Idx → EReal)
      = shapeCast S1x64 (m ((c : Thread nD τ).loc main_arg12) : S64.Idx → EReal) shapeCasts_S64_S1x64 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  exact shapeCast_a_1a_apply _ _ 0 k

set_option maxHeartbeats 1000000 in
theorem v1_apply (c : Dev nD) (k : Fin 64) :
    (V m c main_v27 : S1x64.Idx → EReal) (ix2 (0 : Fin 1) k) = (m ((c : Thread nD τ).loc main_arg13) : S64.Idx → EReal) (ix1 k) := by
  have e : (V m c main_v27 : S1x64.Idx → EReal)
      = shapeCast S1x64 (m ((c : Thread nD τ).loc main_arg13) : S64.Idx → EReal) shapeCasts_S64_S1x64 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  exact shapeCast_a_1a_apply _ _ 0 k

set_option maxHeartbeats 1000000 in
theorem g5_apply (c : Dev nD) (k : Fin 5) :
    (V m c main_v28 : S1x5.Idx → EReal) (ix2 (0 : Fin 1) k) = (m ((c : Thread nD τ).loc main_arg14) : S5.Idx → EReal) (ix1 k) := by
  have e : (V m c main_v28 : S1x5.Idx → EReal)
      = shapeCast S1x5 (m ((c : Thread nD τ).loc main_arg14) : S5.Idx → EReal) shapeCasts_S5_S1x5 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  exact shapeCast_a_1a_apply _ _ 0 k

set_option maxHeartbeats 1000000 in
theorem b5_apply (c : Dev nD) (k : Fin 5) :
    (V m c main_v29 : S1x5.Idx → EReal) (ix2 (0 : Fin 1) k) = (m ((c : Thread nD τ).loc main_arg15) : S5.Idx → EReal) (ix1 k) := by
  have e : (V m c main_v29 : S1x5.Idx → EReal)
      = shapeCast S1x5 (m ((c : Thread nD τ).loc main_arg15) : S5.Idx → EReal) shapeCasts_S5_S1x5 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  exact shapeCast_a_1a_apply _ _ 0 k

set_option maxHeartbeats 1000000 in
theorem m5_apply (c : Dev nD) (k : Fin 5) :
    (V m c main_v30 : S1x5.Idx → EReal) (ix2 (0 : Fin 1) k) = (m ((c : Thread nD τ).loc main_arg16) : S5.Idx → EReal) (ix1 k) := by
  have e : (V m c main_v30 : S1x5.Idx → EReal)
      = shapeCast S1x5 (m ((c : Thread nD τ).loc main_arg16) : S5.Idx → EReal) shapeCasts_S5_S1x5 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  exact shapeCast_a_1a_apply _ _ 0 k

set_option maxHeartbeats 1000000 in
theorem v5_apply (c : Dev nD) (k : Fin 5) :
    (V m c main_v31 : S1x5.Idx → EReal) (ix2 (0 : Fin 1) k) = (m ((c : Thread nD τ).loc main_arg17) : S5.Idx → EReal) (ix1 k) := by
  have e : (V m c main_v31 : S1x5.Idx → EReal)
      = shapeCast S1x5 (m ((c : Thread nD τ).loc main_arg17) : S5.Idx → EReal) shapeCasts_S5_S1x5 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
    after_results
    rfl
  rw [e]
  exact shapeCast_a_1a_apply _ _ 0 k

end Cert.KernelIdeal.HostSide

end
-- ==== Proof.NetSpec.lean ====
/-
  The array both programs end holding, as one function of the eighteen argument arrays.

  Row `r` of the result is the network (`QuantNet.net`) applied to row `r` of the input array `x`, with the parameters read
  off the five weight arrays (one row per output) and the twelve batch-norm vectors (scale, shift, mean, variance for each
  of the three batch norms). The quantizer `Q` is left open: the kernel computes this array with `quantK`, the reference
  with `quantR`.
-/
import Idealize.ShloMosaic.Lib.ValueIdx
import proofs.«109735_j6528350290491_1_alg».proof.Proof.QuantNet

noncomputable section

namespace Cert.QuantNet

open Idealize.ShloMosaic Idealize.ShloMosaic.ValueIdx

/-- A batch norm's parameters from its four vectors. -/
def bnOf {n : Nat} (g b m v : (⟨1, ![n]⟩ : Shape).Idx → EReal) : BnParams n :=
  ⟨fun k => g (ix1 k), fun k => b (ix1 k), fun k => m (ix1 k), fun k => v (ix1 k)⟩

/-- The network's parameters from the seventeen parameter arrays. -/
def paramsOf (w1 : (⟨2, ![64, 16]⟩ : Shape).Idx → EReal) (w2 : (⟨2, ![32, 64]⟩ : Shape).Idx → EReal)
    (w3 w4 : (⟨2, ![32, 32]⟩ : Shape).Idx → EReal) (w5 : (⟨2, ![5, 32]⟩ : Shape).Idx → EReal)
    (g0 b0 m0 v0 : (⟨1, ![16]⟩ : Shape).Idx → EReal) (g1 b1 m1 v1 : (⟨1, ![64]⟩ : Shape).Idx → EReal)
    (g5 b5 m5 v5 : (⟨1, ![5]⟩ : Shape).Idx → EReal) : Params where
  w1 j k := w1 (ix2 j k)
  w2 j k := w2 (ix2 j k)
  w3 j k := w3 (ix2 j k)
  w4 j k := w4 (ix2 j k)
  w5 j k := w5 (ix2 j k)
  bn0 := bnOf g0 b0 m0 v0
  bn1 := bnOf g1 b1 m1 v1
  bn5 := bnOf g5 b5 m5 v5

/-- The result array: at `(r, j)`, output `j` of the network on row `r` of `x`. -/
def resultArray (Q : EReal → EReal) (P : Params) (x : (⟨2, ![524288, 16]⟩ : Shape).Idx → EReal) :
    (⟨2, ![524288, 5]⟩ : Shape).Idx → EReal :=
  fun i => net Q P (fun k => x (ix2 (i 0 : Fin 524288) k)) (i 1 : Fin 5)

/-- With real inputs and parameters as `Params.Ok` asks, the two spellings of the quantizer give one result array. -/
theorem resultArray_quantR_eq {P : Params} (hP : P.Ok) {x : (⟨2, ![524288, 16]⟩ : Shape).Idx → EReal}
    (hx : ∀ i, RealValued.IsReal (x i)) : resultArray quantR P x = resultArray quantK P x :=
  funext fun i => congrFun (net_quantR_eq hP fun k => hx _) _

end Cert.QuantNet

end
-- ==== Proof.KernelValue.lean ====
/-
  From the blocks to the array.

  The kernel is launched on 64 grid points. At point `t` the input window holds rows `8192·t … 8192·t + 8191` of the input
  array, every parameter window holds its whole (small) array, and the output window's block is rows `8192·t …` of the
  result. The body turns row `p` of the input block into row `p` of the output block (`Row.body_row`), so what point `t`
  writes back is block `t` of ONE array: `QuantNet.resultArray quantK` of the argument arrays. The 64 blocks cover the
  result's rows (row `r` lies in block `r / 8192`), so after the run the result array IS that array.
-/
import proofs.«109735_j6528350290491_1_alg».proof.Proof.Gen.KernelIdeal.Value
import proofs.«109735_j6528350290491_1_alg».proof.Proof.KernelRow
import proofs.«109735_j6528350290491_1_alg».proof.Proof.KernelWeights
import proofs.«109735_j6528350290491_1_alg».proof.Proof.KernelNormRowsA
import proofs.«109735_j6528350290491_1_alg».proof.Proof.KernelNormRowsB
import proofs.«109735_j6528350290491_1_alg».proof.Proof.NetSpec
import Idealize.ShloMosaic.Lib.Pipeline.Value
import Idealize.ShloMosaic.Lib.Tactic

noncomputable section

namespace Cert.KernelIdeal.Whole

open Cert.KernelIdeal Cert.KernelIdeal.Gen Cert.KernelIdeal.Value Cert.KernelIdeal.HostSide Cert.KernelIdeal.Row
open Idealize.ShloMosaic Idealize.ShloMosaic.TcCoe Idealize.ShloMosaic.ValueIdx Idealize.SL.Sem Cert.QuantNet
open Idealize.ShloMosaic.Pipeline (Dat)

variable (m : (ℓ : Loc nD τ sig) → Buf (Elt Ideal) ℓ) (ρ : Dev nD → PrngReg)

/-- The network's parameters, from the argument arrays as launched. -/
def P (c : Dev nD) : Params :=
  paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- The result array: the network, with the plain quantizer, applied to each row of the input array. -/
def G (c : Dev nD) : S524288x5.Idx → EReal := resultArray quantK (P m c) (m ((c : Thread nD τ).loc main_arg0))

theorem hz : (![0, 0] : Fin 2 → Nat) = fun _ => 0 := funext fun a => by fin_cases a <;> rfl

/-- The printed index maps, decided over the 64 grid points: the input and output windows' block index is `(t, 0)`, every
    parameter window's is `(0, 0)`. -/
theorem idx_facts : ∀ t : Fin cfg0.N,
    win0_0.index t (0 : Fin 2) = t.val ∧ win0_0.index t (1 : Fin 2) = 0
    ∧ win0_18.index t (0 : Fin 2) = t.val ∧ win0_18.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0
    ∧ win0_17.index t (0 : Fin 2) = 0 ∧ win0_17.index t (1 : Fin 2) = 0 :=
  (by decide +kernel : ∀ t : Fin grid0.N, _)

/-! ## Each window's block, read where the arrays are -/

/-- The input window's block at point `t` is rows `8192·t …` of the input array. -/
theorem iblk0_apply (c : Dev nD) (t : Fin cfg0.N) (p : Fin 8192) (k : Fin 16) (i : S524288x16.Idx)
    (hi0 : (i 0).val = 8192 * t.val + p.val) (hi1 : (i 1).val = k.val) :
    (iblk m c 0 t : S8192x16.Idx → EReal) (ix2 p k) = ((m ((c : Thread nD τ).loc main_arg0)) : S524288x16.Idx → EReal) i := by
  obtain ⟨e0a, e0b, -⟩ := idx_facts t
  unfold iblk
  rw [View.read_apply]
  show (V m c main_arg0 : S524288x16.Idx → EReal) _ = _
  rw [V_main_arg0]
  refine congrArg ((m ((c : Thread nD τ).loc main_arg0)) : S524288x16.Idx → EReal) ?_
  funext a
  apply Fin.ext
  match a with
  | ⟨0, _⟩ => show win0_0.index t (0 : Fin 2) * 8192 + 1 * p.val = (i 0).val; rw [e0a, hi0]; omega
  | ⟨1, _⟩ => show win0_0.index t (1 : Fin 2) * 16 + 1 * k.val = (i 1).val; rw [e0b, hi1]; omega

/-- Window 1's block at every point is the whole weight block of layer 1. -/
theorem iblk1_apply (c : Dev nD) (t : Fin cfg0.N) (j : Fin 64) (k : Fin 16) :
    (iblk m c 1 t : S16x64.Idx → EReal) (ix2 k j) = quantK ((P m c).w1 j k) := by
  obtain ⟨-, -, -, -, ea, eb, -, -, -, -, -, -, -, -, -, -, -, -, -, -, -, -, -, -, -, -, -, -, -, -, -, -, -, -, -, -, -, -⟩ := idx_facts t
  unfold iblk
  rw [View.read_apply]
  show (V m c main_v3 : S16x64.Idx → EReal) _ = _
  refine (congrArg (V m c main_v3 : S16x64.Idx → EReal) ?_).trans (wT1_apply m c k j)
  funext a
  apply Fin.ext
  match a with
  | ⟨0, _⟩ => show win0_1.index t (0 : Fin 2) * 16 + 1 * k.val = k.val; rw [ea]; omega
  | ⟨1, _⟩ => show win0_1.index t (1 : Fin 2) * 64 + 1 * j.val = j.val; rw [eb]; omega

/-- Window 2's block at every point is the whole weight block of layer 2. -/
theorem iblk2_apply (c : Dev nD) (t : Fin cfg0.N) (j : Fin 32) (k : Fin 64) :
    (iblk m c 2 t : S64x32.Idx → EReal) (ix2 k j) = quantK ((P m c).w2 j k) := by
  obtain ⟨-, -, -, -, -, -, ea, eb, -, -, -, -, -, -, -, -, -, -, -, -, -, -, -, -, -, -, -, -, -, -, -, -, -, -, -, -, -, -⟩ := idx_facts t
  unfold iblk
  rw [View.read_apply]
  show (V m c main_v7 : S64x32.Idx → EReal) _ = _
  refine (congrArg (V m c main_v7 : S64x32.Idx → EReal) ?_).trans (wT2_apply m c k j)
  funext a
  apply Fin.ext
  match a with
  | ⟨0, _⟩ => show win0_2.index t (0 : Fin 2) * 64 + 1 * k.val = k.val; rw [ea]; omega
  | ⟨1, _⟩ => show win0_2.index t (1 : Fin 2) * 32 + 1 * j.val = j.val; rw [eb]; omega

/-- Window 3's block at every point is the whole weight block of layer 3. -/
theorem iblk3_apply (c : Dev nD) (t : Fin cfg0.N) (j : Fin 32) (k : Fin 32) :
    (iblk m c 3 t : S32x32.Idx → EReal) (ix2 k j) = quantK ((P m c).w3 j k) := by
  obtain ⟨-, -, -, -, -, -, -, -, ea, eb, -, -, -, -, -, -, -, -, -, -, -, -, -, -, -, -, -, -, -, -, -, -, -, -, -, -, -, -⟩ := idx_facts t
  unfold iblk
  rw [View.read_apply]
  show (V m c main_v11 : S32x32.Idx → EReal) _ = _
  refine (congrArg (V m c main_v11 : S32x32.Idx → EReal) ?_).trans (wT3_apply m c k j)
  funext a
  apply Fin.ext
  match a with
  | ⟨0, _⟩ => show win0_3.index t (0 : Fin 2) * 32 + 1 * k.val = k.val; rw [ea]; omega
  | ⟨1, _⟩ => show win0_3.index t (1 : Fin 2) * 32 + 1 * j.val = j.val; rw [eb]; omega

/-- Window 4's block at every point is the whole weight block of layer 4. -/
theorem iblk4_apply (c : Dev nD) (t : Fin cfg0.N) (j : Fin 32) (k : Fin 32) :
    (iblk m c 4 t : S32x32.Idx → EReal) (ix2 k j) = quantK ((P m c).w4 j k) := by
  obtain ⟨-, -, -, -, -, -, -, -, -, -, ea, eb, -, -, -, -, -, -, -, -, -, -, -, -, -, -, -, -, -, -, -, -, -, -, -, -, -, -⟩ := idx_facts t
  unfold iblk
  rw [View.read_apply]
  show (V m c main_v15 : S32x32.Idx → EReal) _ = _
  refine (congrArg (V m c main_v15 : S32x32.Idx → EReal) ?_).trans (wT4_apply m c k j)
  funext a
  apply Fin.ext
  match a with
  | ⟨0, _⟩ => show win0_4.index t (0 : Fin 2) * 32 + 1 * k.val = k.val; rw [ea]; omega
  | ⟨1, _⟩ => show win0_4.index t (1 : Fin 2) * 32 + 1 * j.val = j.val; rw [eb]; omega

/-- Window 5's block at every point is the whole weight block of layer 5. -/
theorem iblk5_apply (c : Dev nD) (t : Fin cfg0.N) (j : Fin 5) (k : Fin 32) :
    (iblk m c 5 t : S32x5.Idx → EReal) (ix2 k j) = quantK ((P m c).w5 j k) := by
  obtain ⟨-, -, -, -, -, -, -, -, -, -, -, -, ea, eb, -, -, -, -, -, -, -, -, -, -, -, -, -, -, -, -, -, -, -, -, -, -, -, -⟩ := idx_facts t
  unfold iblk
  rw [View.read_apply]
  show (V m c main_v19 : S32x5.Idx → EReal) _ = _
  refine (congrArg (V m c main_v19 : S32x5.Idx → EReal) ?_).trans (wT5_apply m c k j)
  funext a
  apply Fin.ext
  match a with
  | ⟨0, _⟩ => show win0_5.index t (0 : Fin 2) * 32 + 1 * k.val = k.val; rw [ea]; omega
  | ⟨1, _⟩ => show win0_5.index t (1 : Fin 2) * 5 + 1 * j.val = j.val; rw [eb]; omega

theorem iblk6_apply (c : Dev nD) (t : Fin cfg0.N) (k : Fin 16) :
    (iblk m c 6 t : S1x16.Idx → EReal) (ix2 (0 : Fin 1) k) = ((m ((c : Thread nD τ).loc main_arg6)) : S16.Idx → EReal) (ix1 k) := by
  obtain ⟨-, -, -, -, -, -, -, -, -, -, -, -, -, -, ea, eb, -, -, -, -, -, -, -, -, -, -, -, -, -, -, -, -, -, -, -, -, -, -⟩ := idx_facts t
  unfold iblk
  rw [View.read_apply]
  show (V m c main_v20 : S1x16.Idx → EReal) _ = _
  refine (congrArg (V m c main_v20 : S1x16.Idx → EReal) ?_).trans (g0_apply m c k)
  funext a
  apply Fin.ext
  match a with
  | ⟨0, _⟩ => show win0_6.index t (0 : Fin 2) * 1 + 1 * 0 = 0; rw [ea]
  | ⟨1, _⟩ => show win0_6.index t (1 : Fin 2) * 16 + 1 * k.val = k.val; rw [eb]; omega

theorem iblk7_apply (c : Dev nD) (t : Fin cfg0.N) (k : Fin 16) :
    (iblk m c 7 t : S1x16.Idx → EReal) (ix2 (0 : Fin 1) k) = ((m ((c : Thread nD τ).loc main_arg7)) : S16.Idx → EReal) (ix1 k) := by
  obtain ⟨-, -, -, -, -, -, -, -, -, -, -, -, -, -, -, -, ea, eb, -, -, -, -, -, -, -, -, -, -, -, -, -, -, -, -, -, -, -, -⟩ := idx_facts t
  unfold iblk
  rw [View.read_apply]
  show (V m c main_v21 : S1x16.Idx → EReal) _ = _
  refine (congrArg (V m c main_v21 : S1x16.Idx → EReal) ?_).trans (b0_apply m c k)
  funext a
  apply Fin.ext
  match a with
  | ⟨0, _⟩ => show win0_7.index t (0 : Fin 2) * 1 + 1 * 0 = 0; rw [ea]
  | ⟨1, _⟩ => show win0_7.index t (1 : Fin 2) * 16 + 1 * k.val = k.val; rw [eb]; omega

theorem iblk8_apply (c : Dev nD) (t : Fin cfg0.N) (k : Fin 16) :
    (iblk m c 8 t : S1x16.Idx → EReal) (ix2 (0 : Fin 1) k) = ((m ((c : Thread nD τ).loc main_arg8)) : S16.Idx → EReal) (ix1 k) := by
  obtain ⟨-, -, -, -, -, -, -, -, -, -, -, -, -, -, -, -, -, -, ea, eb, -, -, -, -, -, -, -, -, -, -, -, -, -, -, -, -, -, -⟩ := idx_facts t
  unfold iblk
  rw [View.read_apply]
  show (V m c main_v22 : S1x16.Idx → EReal) _ = _
  refine (congrArg (V m c main_v22 : S1x16.Idx → EReal) ?_).trans (m0_apply m c k)
  funext a
  apply Fin.ext
  match a with
  | ⟨0, _⟩ => show win0_8.index t (0 : Fin 2) * 1 + 1 * 0 = 0; rw [ea]
  | ⟨1, _⟩ => show win0_8.index t (1 : Fin 2) * 16 + 1 * k.val = k.val; rw [eb]; omega

theorem iblk9_apply (c : Dev nD) (t : Fin cfg0.N) (k : Fin 16) :
    (iblk m c 9 t : S1x16.Idx → EReal) (ix2 (0 : Fin 1) k) = ((m ((c : Thread nD τ).loc main_arg9)) : S16.Idx → EReal) (ix1 k) := by
  obtain ⟨-, -, -, -, -, -, -, -, -, -, -, -, -, -, -, -, -, -, -, -, ea, eb, -, -, -, -, -, -, -, -, -, -, -, -, -, -, -, -⟩ := idx_facts t
  unfold iblk
  rw [View.read_apply]
  show (V m c main_v23 : S1x16.Idx → EReal) _ = _
  refine (congrArg (V m c main_v23 : S1x16.Idx → EReal) ?_).trans (v0_apply m c k)
  funext a
  apply Fin.ext
  match a with
  | ⟨0, _⟩ => show win0_9.index t (0 : Fin 2) * 1 + 1 * 0 = 0; rw [ea]
  | ⟨1, _⟩ => show win0_9.index t (1 : Fin 2) * 16 + 1 * k.val = k.val; rw [eb]; omega

theorem iblk10_apply (c : Dev nD) (t : Fin cfg0.N) (k : Fin 64) :
    (iblk m c 10 t : S1x64.Idx → EReal) (ix2 (0 : Fin 1) k) = ((m ((c : Thread nD τ).loc main_arg10)) : S64.Idx → EReal) (ix1 k) := by
  obtain ⟨-, -, -, -, -, -, -, -, -, -, -, -, -, -, -, -, -, -, -, -, -, -, ea, eb, -, -, -, -, -, -, -, -, -, -, -, -, -, -⟩ := idx_facts t
  unfold iblk
  rw [View.read_apply]
  show (V m c main_v24 : S1x64.Idx → EReal) _ = _
  refine (congrArg (V m c main_v24 : S1x64.Idx → EReal) ?_).trans (g1_apply m c k)
  funext a
  apply Fin.ext
  match a with
  | ⟨0, _⟩ => show win0_10.index t (0 : Fin 2) * 1 + 1 * 0 = 0; rw [ea]
  | ⟨1, _⟩ => show win0_10.index t (1 : Fin 2) * 64 + 1 * k.val = k.val; rw [eb]; omega

theorem iblk11_apply (c : Dev nD) (t : Fin cfg0.N) (k : Fin 64) :
    (iblk m c 11 t : S1x64.Idx → EReal) (ix2 (0 : Fin 1) k) = ((m ((c : Thread nD τ).loc main_arg11)) : S64.Idx → EReal) (ix1 k) := by
  obtain ⟨-, -, -, -, -, -, -, -, -, -, -, -, -, -, -, -, -, -, -, -, -, -, -, -, ea, eb, -, -, -, -, -, -, -, -, -, -, -, -⟩ := idx_facts t
  unfold iblk
  rw [View.read_apply]
  show (V m c main_v25 : S1x64.Idx → EReal) _ = _
  refine (congrArg (V m c main_v25 : S1x64.Idx → EReal) ?_).trans (b1_apply m c k)
  funext a
  apply Fin.ext
  match a with
  | ⟨0, _⟩ => show win0_11.index t (0 : Fin 2) * 1 + 1 * 0 = 0; rw [ea]
  | ⟨1, _⟩ => show win0_11.index t (1 : Fin 2) * 64 + 1 * k.val = k.val; rw [eb]; omega

theorem iblk12_apply (c : Dev nD) (t : Fin cfg0.N) (k : Fin 64) :
    (iblk m c 12 t : S1x64.Idx → EReal) (ix2 (0 : Fin 1) k) = ((m ((c : Thread nD τ).loc main_arg12)) : S64.Idx → EReal) (ix1 k) := by
  obtain ⟨-, -, -, -, -, -, -, -, -, -, -, -, -, -, -, -, -, -, -, -, -, -, -, -, -, -, ea, eb, -, -, -, -, -, -, -, -, -, -⟩ := idx_facts t
  unfold iblk
  rw [View.read_apply]
  show (V m c main_v26 : S1x64.Idx → EReal) _ = _
  refine (congrArg (V m c main_v26 : S1x64.Idx → EReal) ?_).trans (m1_apply m c k)
  funext a
  apply Fin.ext
  match a with
  | ⟨0, _⟩ => show win0_12.index t (0 : Fin 2) * 1 + 1 * 0 = 0; rw [ea]
  | ⟨1, _⟩ => show win0_12.index t (1 : Fin 2) * 64 + 1 * k.val = k.val; rw [eb]; omega

theorem iblk13_apply (c : Dev nD) (t : Fin cfg0.N) (k : Fin 64) :
    (iblk m c 13 t : S1x64.Idx → EReal) (ix2 (0 : Fin 1) k) = ((m ((c : Thread nD τ).loc main_arg13)) : S64.Idx → EReal) (ix1 k) := by
  obtain ⟨-, -, -, -, -, -, -, -, -, -, -, -, -, -, -, -, -, -, -, -, -, -, -, -, -, -, -, -, ea, eb, -, -, -, -, -, -, -, -⟩ := idx_facts t
  unfold iblk
  rw [View.read_apply]
  show (V m c main_v27 : S1x64.Idx → EReal) _ = _
  refine (congrArg (V m c main_v27 : S1x64.Idx → EReal) ?_).trans (v1_apply m c k)
  funext a
  apply Fin.ext
  match a with
  | ⟨0, _⟩ => show win0_13.index t (0 : Fin 2) * 1 + 1 * 0 = 0; rw [ea]
  | ⟨1, _⟩ => show win0_13.index t (1 : Fin 2) * 64 + 1 * k.val = k.val; rw [eb]; omega

theorem iblk14_apply (c : Dev nD) (t : Fin cfg0.N) (k : Fin 5) :
    (iblk m c 14 t : S1x5.Idx → EReal) (ix2 (0 : Fin 1) k) = ((m ((c : Thread nD τ).loc main_arg14)) : S5.Idx → EReal) (ix1 k) := by
  obtain ⟨-, -, -, -, -, -, -, -, -, -, -, -, -, -, -, -, -, -, -, -, -, -, -, -, -, -, -, -, -, -, ea, eb, -, -, -, -, -, -⟩ := idx_facts t
  unfold iblk
  rw [View.read_apply]
  show (V m c main_v28 : S1x5.Idx → EReal) _ = _
  refine (congrArg (V m c main_v28 : S1x5.Idx → EReal) ?_).trans (g5_apply m c k)
  funext a
  apply Fin.ext
  match a with
  | ⟨0, _⟩ => show win0_14.index t (0 : Fin 2) * 1 + 1 * 0 = 0; rw [ea]
  | ⟨1, _⟩ => show win0_14.index t (1 : Fin 2) * 5 + 1 * k.val = k.val; rw [eb]; omega

theorem iblk15_apply (c : Dev nD) (t : Fin cfg0.N) (k : Fin 5) :
    (iblk m c 15 t : S1x5.Idx → EReal) (ix2 (0 : Fin 1) k) = ((m ((c : Thread nD τ).loc main_arg15)) : S5.Idx → EReal) (ix1 k) := by
  obtain ⟨-, -, -, -, -, -, -, -, -, -, -, -, -, -, -, -, -, -, -, -, -, -, -, -, -, -, -, -, -, -, -, -, ea, eb, -, -, -, -⟩ := idx_facts t
  unfold iblk
  rw [View.read_apply]
  show (V m c main_v29 : S1x5.Idx → EReal) _ = _
  refine (congrArg (V m c main_v29 : S1x5.Idx → EReal) ?_).trans (b5_apply m c k)
  funext a
  apply Fin.ext
  match a with
  | ⟨0, _⟩ => show win0_15.index t (0 : Fin 2) * 1 + 1 * 0 = 0; rw [ea]
  | ⟨1, _⟩ => show win0_15.index t (1 : Fin 2) * 5 + 1 * k.val = k.val; rw [eb]; omega

theorem iblk16_apply (c : Dev nD) (t : Fin cfg0.N) (k : Fin 5) :
    (iblk m c 16 t : S1x5.Idx → EReal) (ix2 (0 : Fin 1) k) = ((m ((c : Thread nD τ).loc main_arg16)) : S5.Idx → EReal) (ix1 k) := by
  obtain ⟨-, -, -, -, -, -, -, -, -, -, -, -, -, -, -, -, -, -, -, -, -, -, -, -, -, -, -, -, -, -, -, -, -, -, ea, eb, -, -⟩ := idx_facts t
  unfold iblk
  rw [View.read_apply]
  show (V m c main_v30 : S1x5.Idx → EReal) _ = _
  refine (congrArg (V m c main_v30 : S1x5.Idx → EReal) ?_).trans (m5_apply m c k)
  funext a
  apply Fin.ext
  match a with
  | ⟨0, _⟩ => show win0_16.index t (0 : Fin 2) * 1 + 1 * 0 = 0; rw [ea]
  | ⟨1, _⟩ => show win0_16.index t (1 : Fin 2) * 5 + 1 * k.val = k.val; rw [eb]; omega

theorem iblk17_apply (c : Dev nD) (t : Fin cfg0.N) (k : Fin 5) :
    (iblk m c 17 t : S1x5.Idx → EReal) (ix2 (0 : Fin 1) k) = ((m ((c : Thread nD τ).loc main_arg17)) : S5.Idx → EReal) (ix1 k) := by
  obtain ⟨-, -, -, -, -, -, -, -, -, -, -, -, -, -, -, -, -, -, -, -, -, -, -, -, -, -, -, -, -, -, -, -, -, -, -, -, ea, eb⟩ := idx_facts t
  unfold iblk
  rw [View.read_apply]
  show (V m c main_v31 : S1x5.Idx → EReal) _ = _
  refine (congrArg (V m c main_v31 : S1x5.Idx → EReal) ?_).trans (v5_apply m c k)
  funext a
  apply Fin.ext
  match a with
  | ⟨0, _⟩ => show win0_17.index t (0 : Fin 2) * 1 + 1 * 0 = 0; rw [ea]
  | ⟨1, _⟩ => show win0_17.index t (1 : Fin 2) * 5 + 1 * k.val = k.val; rw [eb]; omega

/-! ## What a point writes back, the cover, the array -/

/-- What point `t` writes back is block `t` of `G`. -/
theorem flushed_eq (c : Dev nD) (t : Fin cfg0.N) :
    (dats m 0 c).flushed 18 t = ((cfg0.win 18).blk t).view.read (Elt Ideal) (G m c) := by
  rw [flushed18]
  unfold out0_18
  rw [View.canon_unit_zero hz]
  simp only [View.ld_unit_zero (S := S8192x16) hz, View.ld_unit_zero (S := S1x16) hz, View.ld_unit_zero (S := S16x64) hz, View.ld_unit_zero (S := S1x64) hz, View.ld_unit_zero (S := S64x32) hz, View.ld_unit_zero (S := S32x32) hz, View.ld_unit_zero (S := S32x5) hz, View.ld_unit_zero (S := S1x5) hz, View.ld_unit_zero (S := S8192x5) hz]
  obtain ⟨-, -, e18a, e18b, -⟩ := idx_facts t
  funext y
  obtain ⟨p, j, rfl⟩ : ∃ (p : Fin 8192) (j : Fin 5), y = ix2 p j := ⟨y 0, y 1, eq_ix2 y⟩
  have hN : cfg0.N = 64 := N_0
  have ht : t.val < 64 := hN ▸ t.isLt
  show k0_pay6 (F := Ideal) (k0_pay4 (k0_pay1 (iblk m c 0 t) (iblk m c 6 t) (iblk m c 7 t) (iblk m c 8 t) (iblk m c 9 t) (iblk m c 1 t))
      (k0_pay2 (iblk m c 10 t)) (k0_pay3 (iblk m c 11 t)) (iblk m c 12 t) (iblk m c 13 t) (iblk m c 2 t) (iblk m c 3 t)) k0_pay5
      (iblk m c 4 t) (iblk m c 5 t) (iblk m c 14 t) (iblk m c 15 t) (iblk m c 16 t) (iblk m c 17 t) (ix2 p j)
    = G m c (((cfg0.win 18).blk t).view.emb (ix2 p j))
  have h0 : ((((cfg0.win 18).blk t).view.emb (ix2 p j)) 0).val = 8192 * t.val + p.val := by
    show win0_18.index t (0 : Fin 2) * 8192 + 1 * p.val = _; rw [e18a]; omega
  have h1 : ((((cfg0.win 18).blk t).view.emb (ix2 p j)) 1 : Fin 5) = j :=
    Fin.ext (by show win0_18.index t (1 : Fin 2) * 5 + 1 * j.val = j.val; rw [e18b]; omega)
  refine (body_row (P m c) (fun k => ((m ((c : Thread nD τ).loc main_arg0)) : S524288x16.Idx → EReal)
      (ix2 ((((cfg0.win 18).blk t).view.emb (ix2 p j)) 0 : Fin 524288) k)) p
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) j
    (fun k => iblk0_apply m c t p k _ h0 rfl)
    (iblk1_apply m c t) (iblk2_apply m c t) (iblk3_apply m c t) (iblk4_apply m c t) (iblk5_apply m c t)
    (iblk6_apply m c t) (iblk7_apply m c t) (iblk8_apply m c t) (iblk9_apply m c t)
    (iblk10_apply m c t) (iblk11_apply m c t) (iblk12_apply m c t) (iblk13_apply m c t)
    (iblk14_apply m c t) (iblk15_apply m c t) (iblk16_apply m c t) (iblk17_apply m c t)).trans ?_
  show _ = net quantK (P m c) _ ((((cfg0.win 18).blk t).view.emb (ix2 p j)) 1 : Fin 5)
  rw [h1]

/-- An index of the result array is in point `t`'s block iff each coordinate is in the block's range on its axis. -/
theorem mem_blk (t : Fin cfg0.N) (i : S524288x5.Idx) :
    i ∈ ((cfg0.win 18).blk t).view.set ↔ ∀ a : Fin 2, win0_18.index t a * S8192x5.size a ≤ (i a).val
      ∧ (i a).val < win0_18.index t a * S8192x5.size a + S8192x5.size a := by
  show i ∈ ((View.whole main_v32).slice (win0_18.rect t)).set ↔ _
  rw [View.set_slice_whole, Rect.mem_set_unit]
  exact Iff.rfl

/-- Every index of the result array lies in some point's block: row `r` in block `r / 8192`. -/
theorem cover (i : S524288x5.Idx) : ∃ t : Fin cfg0.N, (cfg0.win 18).flush t = true ∧ i ∈ ((cfg0.win 18).blk t).view.set := by
  have hi0 : (i 0).val < 524288 := (i 0).isLt
  have hi1 : (i 1).val < 5 := (i 1).isLt
  have hN : cfg0.N = 64 := N_0
  have hlt : (i 0).val / 8192 < cfg0.N := by rw [hN]; omega
  obtain ⟨-, -, e18a, e18b, -⟩ := idx_facts ⟨(i 0).val / 8192, hlt⟩
  refine ⟨⟨(i 0).val / 8192, hlt⟩, flush0_18 _, ?_⟩
  rw [mem_blk]
  intro a
  match a with
  | ⟨0, _⟩ =>
    show win0_18.index ⟨(i 0).val / 8192, hlt⟩ (0 : Fin 2) * 8192 ≤ (i 0).val
      ∧ (i 0).val < win0_18.index ⟨(i 0).val / 8192, hlt⟩ (0 : Fin 2) * 8192 + 8192
    rw [e18a]; show (i 0).val / 8192 * 8192 ≤ (i 0).val ∧ (i 0).val < (i 0).val / 8192 * 8192 + 8192; omega
  | ⟨1, _⟩ =>
    show win0_18.index ⟨(i 0).val / 8192, hlt⟩ (1 : Fin 2) * 5 ≤ (i 1).val
      ∧ (i 1).val < win0_18.index ⟨(i 0).val / 8192, hlt⟩ (1 : Fin 2) * 5 + 5
    rw [e18b]; omega

/-- After the run the result array is `G`. -/
theorem final (c : Dev nD) : (dats m 0 c).arrAt 18 cfg0.N = G m c :=
  (dats m 0 c).arrAt_eq_of_cover 18 (G m c) (fun t _ => flushed_eq m c t) cover

/-- The kernel's run, read: the result array at `G`, the arguments unchanged. -/
theorem run : θ_run defs (onTc (τ := τ) (main (F := Ideal))) ⟨m, fun _ => 0, ρ⟩ fun r => ∀ c : Dev nD,
      r.2.mem ((c : Thread nD τ).loc main_v32) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun _ h c => ⟨(h c).1.trans (final m c), (h c).2⟩) (Value.run_blocks m ρ)

end Cert.KernelIdeal.Whole

end
-- ==== Proof.RefRows.lean ====
/-
  The reference program read one row at a time.

  The reference applies each operation to whole arrays: the batch norm's vectors are broadcast to the array's shape, the
  quantizer is `clip (a + (round a − a))` entry by entry, each weight array is quantized the same way and transposed, and
  each layer is one contraction of the activation array's second axis with the transposed weights' first. Read at row `r`,
  stage by stage, it is the network of `QuantNet` with the quantizer `quantR` applied to row `r` of the input array: each
  lemma below reads one stage (normalise and rectify; quantize; the layer's weights; the product) at an entry of row `r` from
  the stage before, and the last one puts them together as `resultArray quantR`.
-/
import proofs.«109735_j6528350290491_1_alg».proof.Proof.Gen.ReferenceIdeal.Read
import proofs.«109735_j6528350290491_1_alg».proof.Proof.NetSpec

set_option maxHeartbeats 1000000

noncomputable section

namespace Cert.ReferenceIdeal.Rows

open Cert.ReferenceIdeal Cert.ReferenceIdeal.Read Idealize.ShloMosaic Idealize.ShloMosaic.ValueIdx Cert.QuantNet

/-- An index of a vector is named by its one coordinate. -/
theorem vecIdx_eq {n : Nat} (i : (⟨1, ![n]⟩ : Shape).Idx) (k : Fin n) (h : (i 0).val = k.val) : i = ix1 k := by
  funext a
  match a with
  | ⟨0, _⟩ => exact Fin.ext h

/-- An index of a matrix is named by its two coordinates. -/
theorem matIdx_eq {a b : Nat} (i : (⟨2, ![a, b]⟩ : Shape).Idx) (p : Fin a) (q : Fin b) (h0 : (i 0).val = p.val)
    (h1 : (i 1).val = q.val) : i = ix2 p q := by
  funext d
  match d with
  | ⟨0, _⟩ => exact Fin.ext h0
  | ⟨1, _⟩ => exact Fin.ext h1

variable (x0 : FVec Ideal S524288x16 .f32) (x1 : FVec Ideal S64x16 .f32) (x2 : FVec Ideal S32x64 .f32) (x3 : FVec Ideal S32x32 .f32) (x4 : FVec Ideal S32x32 .f32) (x5 : FVec Ideal S5x32 .f32) (x6 : FVec Ideal S16 .f32) (x7 : FVec Ideal S16 .f32) (x8 : FVec Ideal S16 .f32) (x9 : FVec Ideal S16 .f32) (x10 : FVec Ideal S64 .f32) (x11 : FVec Ideal S64 .f32) (x12 : FVec Ideal S64 .f32) (x13 : FVec Ideal S64 .f32) (x14 : FVec Ideal S5 .f32) (x15 : FVec Ideal S5 .f32) (x16 : FVec Ideal S5 .f32) (x17 : FVec Ideal S5 .f32)
variable (r : Fin 524288)

local notation "P" => paramsOf x1 x2 x3 x4 x5 x6 x7 x8 x9 x10 x11 x12 x13 x14 x15 x16 x17
local notation "xr" => fun k : Fin 16 => x0 (ix2 r k)

theorem ref_a0 (j : Fin 16) : val_main_v15 (F := Ideal) x0 x6 x7 x8 x9 (ix2 r j) = act0 P xr j := by
  simp only [val_main_v0_apply, val_main_v1_apply, val_main_v2_apply, val_main_cst_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_call0_cst_apply, val_main_call0_v0_apply, val_main_v15_apply,
    vecIdx_eq (idx_main_v0 (idx_main_v1 (ix2 r j))) j rfl,
    vecIdx_eq (idx_main_v6 (idx_main_v7 (ix2 r j))) j rfl,
    vecIdx_eq (idx_main_v9 (idx_main_v10 (ix2 r j))) j rfl,
    vecIdx_eq (idx_main_v12 (idx_main_v13 (ix2 r j))) j rfl]
  rfl

theorem ref_q0 (k : Fin 16) : val_main_v19 (F := Ideal) x0 x6 x7 x8 x9 (ix2 r k) = quantR (act0 P xr k) := by
  simp only [val_main_v16_apply, val_main_v17_apply, val_main_v18_apply, val_main_cst_0_apply, val_main_cst_1_apply, val_main_call2_v0_apply, val_main_call2_v1_apply, val_main_call2_v2_apply, val_main_call2_v3_apply, val_main_call2_v4_apply, val_main_v19_apply]
  rw [ref_a0]
  rfl

theorem ref_w1 (k : Fin 16) (j : Fin 64) : val_main_v24 (F := Ideal) x1 (ix2 k j) = quantR ((P).w1 j k) := by
  simp only [val_main_v20_apply, val_main_v21_apply, val_main_v22_apply, val_main_cst_2_apply, val_main_cst_3_apply, val_main_call4_v0_apply, val_main_call4_v1_apply, val_main_call4_v2_apply, val_main_call4_v3_apply, val_main_call4_v4_apply, val_main_v23_apply, val_main_v24_apply,
    matIdx_eq (idx_main_v24 (ix2 k j)) j k rfl rfl]
  rfl

theorem ref_z1 (j : Fin 64) : val_main_v25 (F := Ideal) x0 x1 x6 x7 x8 x9 (ix2 r j) = lin quantR (P).w1 (act0 P xr) j := by
  rw [val_main_v25_apply]
  refine Finset.sum_congr rfl fun k _ => ?_
  rw [matIdx_eq (lidx_main_v25 (ix2 r j) k) r k rfl rfl, matIdx_eq (ridx_main_v25 (ix2 r j) k) k j rfl rfl, ref_q0, ref_w1]

theorem ref_a1 (j : Fin 64) : val_main_v41 (F := Ideal) x0 x1 x6 x7 x8 x9 x10 x11 x12 x13 (ix2 r j) = act1 quantR P xr j := by
  simp only [val_main_v26_apply, val_main_v27_apply, val_main_v28_apply, val_main_cst_4_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_call5_cst_apply, val_main_call5_v0_apply, val_main_v41_apply,
    vecIdx_eq (idx_main_v26 (idx_main_v27 (ix2 r j))) j rfl,
    vecIdx_eq (idx_main_v32 (idx_main_v33 (ix2 r j))) j rfl,
    vecIdx_eq (idx_main_v35 (idx_main_v36 (ix2 r j))) j rfl,
    vecIdx_eq (idx_main_v38 (idx_main_v39 (ix2 r j))) j rfl]
  rw [ref_z1]
  rfl

theorem ref_q1 (k : Fin 64) : val_main_v45 (F := Ideal) x0 x1 x6 x7 x8 x9 x10 x11 x12 x13 (ix2 r k) = quantR (act1 quantR P xr k) := by
  simp only [val_main_v42_apply, val_main_v43_apply, val_main_v44_apply, val_main_cst_5_apply, val_main_cst_6_apply, val_main_call7_v0_apply, val_main_call7_v1_apply, val_main_call7_v2_apply, val_main_call7_v3_apply, val_main_call7_v4_apply, val_main_v45_apply]
  rw [ref_a1]
  rfl

theorem ref_w2 (k : Fin 64) (j : Fin 32) : val_main_v50 (F := Ideal) x2 (ix2 k j) = quantR ((P).w2 j k) := by
  simp only [val_main_v46_apply, val_main_v47_apply, val_main_v48_apply, val_main_cst_7_apply, val_main_cst_8_apply, val_main_call9_v0_apply, val_main_call9_v1_apply, val_main_call9_v2_apply, val_main_call9_v3_apply, val_main_call9_v4_apply, val_main_v49_apply, val_main_v50_apply,
    matIdx_eq (idx_main_v50 (ix2 k j)) j k rfl rfl]
  rfl

theorem ref_z2 (j : Fin 32) : val_main_v51 (F := Ideal) x0 x1 x2 x6 x7 x8 x9 x10 x11 x12 x13 (ix2 r j) = lin quantR (P).w2 (act1 quantR P xr) j := by
  rw [val_main_v51_apply]
  refine Finset.sum_congr rfl fun k _ => ?_
  rw [matIdx_eq (lidx_main_v51 (ix2 r j) k) r k rfl rfl, matIdx_eq (ridx_main_v51 (ix2 r j) k) k j rfl rfl, ref_q1, ref_w2]

theorem ref_a2 (j : Fin 32) : val_main_v52 (F := Ideal) x0 x1 x2 x6 x7 x8 x9 x10 x11 x12 x13 (ix2 r j) = act2 quantR P xr j := by
  simp only [val_main_call10_cst_apply, val_main_call10_v0_apply, val_main_v52_apply]
  rw [ref_z2]
  rfl

theorem ref_q2 (k : Fin 32) : val_main_v56 (F := Ideal) x0 x1 x2 x6 x7 x8 x9 x10 x11 x12 x13 (ix2 r k) = quantR (act2 quantR P xr k) := by
  simp only [val_main_v53_apply, val_main_v54_apply, val_main_v55_apply, val_main_cst_9_apply, val_main_cst_10_apply, val_main_call12_v0_apply, val_main_call12_v1_apply, val_main_call12_v2_apply, val_main_call12_v3_apply, val_main_call12_v4_apply, val_main_v56_apply]
  rw [ref_a2]
  rfl

theorem ref_w3 (k : Fin 32) (j : Fin 32) : val_main_v61 (F := Ideal) x3 (ix2 k j) = quantR ((P).w3 j k) := by
  simp only [val_main_v57_apply, val_main_v58_apply, val_main_v59_apply, val_main_cst_11_apply, val_main_cst_12_apply, val_main_call14_v0_apply, val_main_call14_v1_apply, val_main_call14_v2_apply, val_main_call14_v3_apply, val_main_call14_v4_apply, val_main_v60_apply, val_main_v61_apply,
    matIdx_eq (idx_main_v61 (ix2 k j)) j k rfl rfl]
  rfl

theorem ref_z3 (j : Fin 32) : val_main_v62 (F := Ideal) x0 x1 x2 x3 x6 x7 x8 x9 x10 x11 x12 x13 (ix2 r j) = lin quantR (P).w3 (act2 quantR P xr) j := by
  rw [val_main_v62_apply]
  refine Finset.sum_congr rfl fun k _ => ?_
  rw [matIdx_eq (lidx_main_v62 (ix2 r j) k) r k rfl rfl, matIdx_eq (ridx_main_v62 (ix2 r j) k) k j rfl rfl, ref_q2, ref_w3]

theorem ref_a3 (j : Fin 32) : val_main_v63 (F := Ideal) x0 x1 x2 x3 x6 x7 x8 x9 x10 x11 x12 x13 (ix2 r j) = act3 quantR P xr j := by
  simp only [val_main_call15_cst_apply, val_main_call15_v0_apply, val_main_v63_apply]
  rw [ref_z3]
  rfl

theorem ref_q3 (k : Fin 32) : val_main_v67 (F := Ideal) x0 x1 x2 x3 x6 x7 x8 x9 x10 x11 x12 x13 (ix2 r k) = quantR (act3 quantR P xr k) := by
  simp only [val_main_v64_apply, val_main_v65_apply, val_main_v66_apply, val_main_cst_13_apply, val_main_cst_14_apply, val_main_call17_v0_apply, val_main_call17_v1_apply, val_main_call17_v2_apply, val_main_call17_v3_apply, val_main_call17_v4_apply, val_main_v67_apply]
  rw [ref_a3]
  rfl

theorem ref_w4 (k : Fin 32) (j : Fin 32) : val_main_v72 (F := Ideal) x4 (ix2 k j) = quantR ((P).w4 j k) := by
  simp only [val_main_v68_apply, val_main_v69_apply, val_main_v70_apply, val_main_cst_15_apply, val_main_cst_16_apply, val_main_call19_v0_apply, val_main_call19_v1_apply, val_main_call19_v2_apply, val_main_call19_v3_apply, val_main_call19_v4_apply, val_main_v71_apply, val_main_v72_apply,
    matIdx_eq (idx_main_v72 (ix2 k j)) j k rfl rfl]
  rfl

theorem ref_z4 (j : Fin 32) : val_main_v73 (F := Ideal) x0 x1 x2 x3 x4 x6 x7 x8 x9 x10 x11 x12 x13 (ix2 r j) = lin quantR (P).w4 (act3 quantR P xr) j := by
  rw [val_main_v73_apply]
  refine Finset.sum_congr rfl fun k _ => ?_
  rw [matIdx_eq (lidx_main_v73 (ix2 r j) k) r k rfl rfl, matIdx_eq (ridx_main_v73 (ix2 r j) k) k j rfl rfl, ref_q3, ref_w4]

theorem ref_a4 (j : Fin 32) : val_main_v74 (F := Ideal) x0 x1 x2 x3 x4 x6 x7 x8 x9 x10 x11 x12 x13 (ix2 r j) = act4 quantR P xr j := by
  simp only [val_main_call20_cst_apply, val_main_call20_v0_apply, val_main_v74_apply]
  rw [ref_z4]
  rfl

theorem ref_q4 (k : Fin 32) : val_main_v78 (F := Ideal) x0 x1 x2 x3 x4 x6 x7 x8 x9 x10 x11 x12 x13 (ix2 r k) = quantR (act4 quantR P xr k) := by
  simp only [val_main_v75_apply, val_main_v76_apply, val_main_v77_apply, val_main_cst_17_apply, val_main_cst_18_apply, val_main_call22_v0_apply, val_main_call22_v1_apply, val_main_call22_v2_apply, val_main_call22_v3_apply, val_main_call22_v4_apply, val_main_v78_apply]
  rw [ref_a4]
  rfl

theorem ref_w5 (k : Fin 32) (j : Fin 5) : val_main_v83 (F := Ideal) x5 (ix2 k j) = quantR ((P).w5 j k) := by
  simp only [val_main_v79_apply, val_main_v80_apply, val_main_v81_apply, val_main_cst_19_apply, val_main_cst_20_apply, val_main_call24_v0_apply, val_main_call24_v1_apply, val_main_call24_v2_apply, val_main_call24_v3_apply, val_main_call24_v4_apply, val_main_v82_apply, val_main_v83_apply,
    matIdx_eq (idx_main_v83 (ix2 k j)) j k rfl rfl]
  rfl

theorem ref_z5 (j : Fin 5) : val_main_v84 (F := Ideal) x0 x1 x2 x3 x4 x5 x6 x7 x8 x9 x10 x11 x12 x13 (ix2 r j) = lin quantR (P).w5 (act4 quantR P xr) j := by
  rw [val_main_v84_apply]
  refine Finset.sum_congr rfl fun k _ => ?_
  rw [matIdx_eq (lidx_main_v84 (ix2 r j) k) r k rfl rfl, matIdx_eq (ridx_main_v84 (ix2 r j) k) k j rfl rfl, ref_q4, ref_w5]

theorem ref_out (j : Fin 5) : val_main_v100 (F := Ideal) x0 x1 x2 x3 x4 x5 x6 x7 x8 x9 x10 x11 x12 x13 x14 x15 x16 x17 (ix2 r j) = net quantR P xr j := by
  simp only [val_main_v85_apply, val_main_v86_apply, val_main_v87_apply, val_main_cst_21_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_call25_cst_apply, val_main_call25_v0_apply, val_main_v100_apply,
    vecIdx_eq (idx_main_v85 (idx_main_v86 (ix2 r j))) j rfl,
    vecIdx_eq (idx_main_v91 (idx_main_v92 (ix2 r j))) j rfl,
    vecIdx_eq (idx_main_v94 (idx_main_v95 (ix2 r j))) j rfl,
    vecIdx_eq (idx_main_v97 (idx_main_v98 (ix2 r j))) j rfl]
  rw [ref_z5]
  rfl

/-- The reference's result array is the network with the quantizer `quantR`, row by row. -/
theorem ref_result : val_main_v100 (F := Ideal) x0 x1 x2 x3 x4 x5 x6 x7 x8 x9 x10 x11 x12 x13 x14 x15 x16 x17 = resultArray quantR P x0 := by
  funext i
  obtain ⟨r, j, rfl⟩ : ∃ (r : Fin 524288) (j : Fin 5), i = ix2 r j := ⟨i 0, i 1, eq_ix2 i⟩
  exact ref_out x0 x1 x2 x3 x4 x5 x6 x7 x8 x9 x10 x11 x12 x13 x14 x15 x16 x17 r j

end Cert.ReferenceIdeal.Rows

end
-- ==== Proof.Finite.lean ====
/-
  The precondition read back.

  The precondition is one bit: the conjunction of "every entry of the array has |a| < +inf" for each of the eighteen argument
  arrays, and of "every entry is ≥ 0" for the variance vectors of the first two batch norms. Read back on the extended reals:
  every entry of every argument array is a real number, and those two variance vectors are nonnegative real numbers —
  which is what `QuantNet.Params.Ok` asks of the parameters (it asks nothing of the last batch norm's variances beyond
  what it is given here and does not use).
-/
import proofs.«109735_j6528350290491_1_alg».proof.Pre_finite_inputs
import proofs.«109735_j6528350290491_1_alg».proof.Proof.NetSpec
import Idealize.ShloMosaic.Lib.ReduceAll
import Idealize.ShloMosaic.PureOps.Ideal.Laws

noncomputable section

namespace Cert.Pre_finite_inputs.Decode

open Cert.Pre_finite_inputs Idealize.ShloMosaic Idealize.ShloMosaic.ValueIdx Cert.RealValued Cert.QuantNet

variable [Cert.Pre_finite_inputs.Facts]
open Cert.Pre_finite_inputs.Facts

/-- A conjunction of two bits that is 1 has both bits 1. -/
theorem and_ix0 {x y : IVec S_ 1} (h : andi x y ix0 = 1#1) : x ix0 = 1#1 ∧ y ix0 = 1#1 := IntOp.andi_eq_one.mp h

/-- One "all entries are ≥ 0" conjunct (a reduction by `and`, over every axis, of the comparison with the zero word broadcast
    from a scalar) gives `0 ≤ a i` of every entry. -/
theorem all_nonneg {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .oge a (broadcastInDim s dims bc (constant (F := Ideal) ⟨0, ![]⟩ .f32 0x00000000#32)))
      (constantI ⟨0, ![]⟩ 1 1#1) h' hu ix0 = 1#1) (i : s.Idx) : (0 : EReal) ≤ a i := by
  haveI : Subsingleton (⟨0, ![]⟩ : Shape).Idx := ⟨fun a b => funext fun d => d.elim0⟩
  have h2 : Ideal.cmp .oge (a i) (Ideal.ofBits .f32 0x00000000#32) = 1#1 := Host.reduce_andi_all _ _ h' hu ix0 e i
  rw [Ideal.ofBits_zero_f32] at h2
  simp only [Ideal.cmp] at h2
  by_contra hn
  rw [decide_eq_false hn] at h2
  exact absurd h2 (by decide)

/-- A real number that is ≥ 0 on the extended reals is a nonnegative real number. -/
theorem nonneg_real {a : EReal} (hr : IsReal a) (h0 : (0 : EReal) ≤ a) : ∃ r : ℝ, 0 ≤ r ∧ a = (r : EReal) := by
  obtain ⟨r, rfl⟩ := hr
  exact ⟨r, EReal.coe_nonneg.1 h0, rfl⟩

/-- The precondition, read back: the input array's entries are real numbers, and the parameters are as the network's
    agreement theorem asks. -/
theorem decode (a0 : FVec Ideal S524288x16 .f32) (a1 : FVec Ideal S64x16 .f32) (a2 : FVec Ideal S32x64 .f32) (a3 : FVec Ideal S32x32 .f32) (a4 : FVec Ideal S32x32 .f32) (a5 : FVec Ideal S5x32 .f32) (a6 : FVec Ideal S16 .f32) (a7 : FVec Ideal S16 .f32) (a8 : FVec Ideal S16 .f32) (a9 : FVec Ideal S16 .f32) (a10 : FVec Ideal S64 .f32) (a11 : FVec Ideal S64 .f32) (a12 : FVec Ideal S64 .f32) (a13 : FVec Ideal S64 .f32) (a14 : FVec Ideal S5 .f32) (a15 : FVec Ideal S5 .f32) (a16 : FVec Ideal S5 .f32) (a17 : FVec Ideal S5 .f32)
    (h : fn (F := Ideal) a0 a1 a2 a3 a4 a5 a6 a7 a8 a9 a10 a11 a12 a13 a14 a15 a16 a17 = fun _ => 1#1) :
    (∀ i, IsReal (a0 i)) ∧ (paramsOf a1 a2 a3 a4 a5 a6 a7 a8 a9 a10 a11 a12 a13 a14 a15 a16 a17).Ok := by
  have h0 := congrFun h ix0
  dsimp only [fn, fn_part1, fn_part2, fn_part3, fn_part4, fn_part5] at h0
  obtain ⟨h0, d1⟩ := and_ix0 h0
  obtain ⟨h0, d0⟩ := and_ix0 h0
  obtain ⟨h0, c17⟩ := and_ix0 h0
  obtain ⟨h0, c16⟩ := and_ix0 h0
  obtain ⟨h0, c15⟩ := and_ix0 h0
  obtain ⟨h0, c14⟩ := and_ix0 h0
  obtain ⟨h0, c13⟩ := and_ix0 h0
  obtain ⟨h0, c12⟩ := and_ix0 h0
  obtain ⟨h0, c11⟩ := and_ix0 h0
  obtain ⟨h0, c10⟩ := and_ix0 h0
  obtain ⟨h0, c9⟩ := and_ix0 h0
  obtain ⟨h0, c8⟩ := and_ix0 h0
  obtain ⟨h0, c7⟩ := and_ix0 h0
  obtain ⟨h0, c6⟩ := and_ix0 h0
  obtain ⟨h0, c5⟩ := and_ix0 h0
  obtain ⟨h0, c4⟩ := and_ix0 h0
  obtain ⟨h0, c3⟩ := and_ix0 h0
  obtain ⟨h0, c2⟩ := and_ix0 h0
  obtain ⟨c0, c1⟩ := and_ix0 h0
  have r0 := all_isReal a0 _ bcast_S_S524288x16 reducesTo_S524288x16_S_d0_1 h_S_ c0
  have r1 := all_isReal a1 _ bcast_S_S64x16 reducesTo_S64x16_S_d0_1 h_S_ c1
  have r2 := all_isReal a2 _ bcast_S_S32x64 reducesTo_S32x64_S_d0_1 h_S_ c2
  have r3 := all_isReal a3 _ bcast_S_S32x32 reducesTo_S32x32_S_d0_1 h_S_ c3
  have r4 := all_isReal a4 _ bcast_S_S32x32 reducesTo_S32x32_S_d0_1 h_S_ c4
  have r5 := all_isReal a5 _ bcast_S_S5x32 reducesTo_S5x32_S_d0_1 h_S_ c5
  have r6 := all_isReal a6 _ bcast_S_S16 reducesTo_S16_S_d0 h_S_ c6
  have r7 := all_isReal a7 _ bcast_S_S16 reducesTo_S16_S_d0 h_S_ c7
  have r8 := all_isReal a8 _ bcast_S_S16 reducesTo_S16_S_d0 h_S_ c8
  have r9 := all_isReal a9 _ bcast_S_S16 reducesTo_S16_S_d0 h_S_ c9
  have r10 := all_isReal a10 _ bcast_S_S64 reducesTo_S64_S_d0 h_S_ c10
  have r11 := all_isReal a11 _ bcast_S_S64 reducesTo_S64_S_d0 h_S_ c11
  have r12 := all_isReal a12 _ bcast_S_S64 reducesTo_S64_S_d0 h_S_ c12
  have r13 := all_isReal a13 _ bcast_S_S64 reducesTo_S64_S_d0 h_S_ c13
  have r14 := all_isReal a14 _ bcast_S_S5 reducesTo_S5_S_d0 h_S_ c14
  have r15 := all_isReal a15 _ bcast_S_S5 reducesTo_S5_S_d0 h_S_ c15
  have r16 := all_isReal a16 _ bcast_S_S5 reducesTo_S5_S_d0 h_S_ c16
  have r17 := all_isReal a17 _ bcast_S_S5 reducesTo_S5_S_d0 h_S_ c17
  have n9 := all_nonneg a9 _ bcast_S_S16 reducesTo_S16_S_d0 h_S_ d0
  have n13 := all_nonneg a13 _ bcast_S_S64 reducesTo_S64_S_d0 h_S_ d1
  exact ⟨r0, {
    w1 := fun j k => r1 _, w2 := fun j k => r2 _, w3 := fun j k => r3 _, w4 := fun j k => r4 _, w5 := fun j k => r5 _,
    bn0 := ⟨fun k => r6 _, fun k => r7 _, fun k => r8 _, fun k => nonneg_real (r9 _) (n9 _)⟩,
    bn1 := ⟨fun k => r10 _, fun k => r11 _, fun k => r12 _, fun k => nonneg_real (r13 _) (n13 _)⟩ }⟩

end Cert.Pre_finite_inputs.Decode

end
-- ==== Proof.lean ====
/-
  A quantized five-layer perceptron applied to 524288 rows of 16 features: the kernel against its array-at-a-time reference,
  on the extended reals.

  Both programs compute, for each row `x` of the input array,

      relu (bn5 (Q a4 · (Q W5)ᵀ)),  a4 = relu (Q a3 · (Q W4)ᵀ),  a3 = relu (Q a2 · (Q W3)ᵀ),  a2 = relu (Q a1 · (Q W2)ᵀ),
      a1 = relu (bn1 (Q a0 · (Q W1)ᵀ)),  a0 = relu (bn0 x),

  with `bn z = (z − m) · rsqrt (v + ε) · g + b` and `Q` the round-and-clip into [−128, 127] (`QuantNet`). The kernel does it
  for 8192 rows per grid point, on weights the host has quantized and transposed beforehand, with `Q z = clip (round z)`; its
  result array is `resultArray quantK` (`KernelRow`: the body at one row; `KernelWeights`, `KernelNormRowsA`, `KernelNormRowsB`: the parameter
  blocks it is launched on; `KernelValue`: the 64 blocks cover the array). The reference spells the quantizer
  `clip (z + (round z − z))`, which is `clip (round z)` for a real number `z` and not at an infinity; its result array is
  `resultArray quantR` (`RefRows`).

  The two arrays are equal as soon as every value that reaches a quantizer is a real number (`QuantNet.net_quantR_eq`). The
  precondition gives that: every entry of every argument array is a real number, and the variances of the first two batch
  norms are ≥ 0, so `v + ε > 0` and `rsqrt (v + ε)` is a positive real (`Finite`). Without the variances' sign the claim is
  false: at `v = −ε` the normalised activation is `+∞`, which the kernel quantizes to 127 and the reference to −128. The last
  batch norm feeds no quantizer and is the same function on both sides, whatever its parameters.

  The kernel's idealization rewrote no operation, so `preserves` is `True`. The three frames are the generated ones (the
  reference's is its generated run with the result dropped).
-/
import proofs.«109735_j6528350290491_1_alg».proof.Defs
import proofs.«109735_j6528350290491_1_alg».proof.Proof.Gen.Kernel
import proofs.«109735_j6528350290491_1_alg».proof.Proof.Gen.Kernel.Skeleton
import proofs.«109735_j6528350290491_1_alg».proof.Proof.Gen.Kernel.Launch
import proofs.«109735_j6528350290491_1_alg».proof.Proof.Gen.Kernel.Points
import proofs.«109735_j6528350290491_1_alg».proof.Proof.Gen.Kernel.Frame
import proofs.«109735_j6528350290491_1_alg».proof.Proof.Gen.KernelIdeal
import proofs.«109735_j6528350290491_1_alg».proof.Proof.Gen.KernelIdeal.Skeleton
import proofs.«109735_j6528350290491_1_alg».proof.Proof.Gen.KernelIdeal.Launch
import proofs.«109735_j6528350290491_1_alg».proof.Proof.Gen.KernelIdeal.Points
import proofs.«109735_j6528350290491_1_alg».proof.Proof.Gen.KernelIdeal.Frame
import proofs.«109735_j6528350290491_1_alg».proof.Proof.Gen.ReferenceIdeal
import proofs.«109735_j6528350290491_1_alg».proof.Proof.Gen.Pre_finite_inputs
import proofs.«109735_j6528350290491_1_alg».proof.Proof.Gen.KernelIdeal.Value
import proofs.«109735_j6528350290491_1_alg».proof.Proof.Gen.ReferenceIdeal.Run
import proofs.«109735_j6528350290491_1_alg».proof.Proof.Gen.ReferenceIdeal.Read
import proofs.«109735_j6528350290491_1_alg».proof.Proof.KernelValue
import proofs.«109735_j6528350290491_1_alg».proof.Proof.RefRows
import proofs.«109735_j6528350290491_1_alg».proof.Proof.Finite
import Idealize.ShloMosaic.Adequacy
import Idealize.ShloMosaic.Init

noncomputable section

namespace Cert.Proof

open Idealize.ShloMosaic Idealize.ShloMosaic.TcCoe Idealize.SL.Sem Cert.QuantNet

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From argument arrays that agree, all real and with nonnegative variances in the first two batch norms, the kernel ends
    at the network with the plain quantizer and the reference at the network with the quantizer spelt as a correction: one
    array. -/
theorem algebraic : Cert.algebraic_KernelIdeal_ReferenceIdeal := by
  intro m ρ m' ρ' hpre hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, Cert.ReferenceIdeal.Rows.ref_result]
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]
  obtain ⟨hx, hP⟩ := Cert.Pre_finite_inputs.Decode.decode _ _ _ _ _ _ _ _ _ _ _ _ _ _ _ _ _ _ (hpre c)
  exact resultArray_quantR_eq hP hx

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
